-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x31 : Shape := ⟨2, ![100000, 31]⟩
abbrev S2x1600000 : Shape := ⟨2, ![2, 1600000]⟩
abbrev S31x128 : Shape := ⟨2, ![31, 128]⟩
abbrev S128 : Shape := ⟨1, ![128]⟩
abbrev S128x128 : Shape := ⟨2, ![128, 128]⟩
abbrev S128x20 : Shape := ⟨2, ![128, 20]⟩
abbrev S20 : Shape := ⟨1, ![20]⟩
abbrev S_ : Shape := ⟨0, ![]⟩

class Facts : Prop where
  bcast_S_S100000x31 : S_.BroadcastsInDim S100000x31 (![] : Fin 0 → Fin S100000x31.rank)
  reducesTo_S100000x31_S_d0_1 : S100000x31.ReducesTo [0, 1] S_
  h_S_ : 0 < S_.numel
  bcast_S_S31x128 : S_.BroadcastsInDim S31x128 (![] : Fin 0 → Fin S31x128.rank)
  reducesTo_S31x128_S_d0_1 : S31x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x20 : S_.BroadcastsInDim S128x20 (![] : Fin 0 → Fin S128x20.rank)
  reducesTo_S128x20_S_d0_1 : S128x20.ReducesTo [0, 1] S_
  bcast_S_S20 : S_.BroadcastsInDim S20 (![] : Fin 0 → Fin S20.rank)
  reducesTo_S20_S_d0 : S20.ReducesTo [0] S_

variable [Facts]

def fn_part2 {F : FTy → Type} [FloatOps F] (main_arg8 : FVec F S128x20 .f32) (main_arg9 : FVec F S20 .f32) (main_v33 : IVec S_ 1) : IVec S_ 1 :=
  let main_v34 : FVec F S128x20 .f32 := Host.absf main_arg8
  let main_cst_12 : FVec F S_ .f32 := constant S_ .f32 0x7F800000#32
  let main_v35 : FVec F S128x20 .f32 := broadcastInDim S128x20 ![] bcast_S_S128x20 main_cst_12
  let main_v36 : IVec S128x20 1 := cmpf .olt main_v34 main_v35
  let main_c_13 : IVec S_ 1 := constantI S_ 1 1#1
  let main_v37 : IVec S_ 1 := (fun x v => Host.reduce IntOp.andi x v reducesTo_S128x20_S_d0_1 h_S_) main_v36 main_c_13
  let main_v38 : IVec S_ 1 := andi main_v33 main_v37
  let main_v39 : FVec F S20 .f32 := Host.absf main_arg9
  let main_cst_14 : FVec F S_ .f32 := constant S_ .f32 0x7F800000#32
  let main_v40 : FVec F S20 .f32 := broadcastInDim S20 ![] bcast_S_S20 main_cst_14
  let main_v41 : IVec S20 1 := cmpf .olt main_v39 main_v40
  let main_c_15 : IVec S_ 1 := constantI S_ 1 1#1
  let main_v42 : IVec S_ 1 := (fun x v => Host.reduce IntOp.andi x v reducesTo_S20_S_d0 h_S_) main_v41 main_c_15
  let main_v43 : IVec S_ 1 := andi main_v38 main_v42
  main_v43

def fn_part1 {F : FTy → Type} [FloatOps F] (main_arg5 : FVec F S128 .f32) (main_arg6 : FVec F S128x128 .f32) (main_arg7 : FVec F S128 .f32) (main_arg8 : FVec F S128x20 .f32) (main_arg9 : FVec F S20 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S100000x31 .f32) (main_arg1 : IVec S2x1600000 32) (main_arg2 : FVec F S31x128 .f32) (main_arg3 : FVec F S128 .f32) (main_arg4 : FVec F S128x128 .f32) (main_arg5 : FVec F S128 .f32) (main_arg6 : FVec F S128x128 .f32) (main_arg7 : FVec F S128 .f32) (main_arg8 : FVec F S128x20 .f32) (main_arg9 : FVec F S20 .f32) : IVec S_ 1 :=
  let main_v0 : FVec F S100000x31 .f32 := Host.absf main_arg0
  let main_cst : FVec F S_ .f32 := constant S_ .f32 0x7F800000#32
  let main_v1 : FVec F S100000x31 .f32 := broadcastInDim S100000x31 ![] bcast_S_S100000x31 main_cst
  let main_v2 : IVec S100000x31 1 := cmpf .olt main_v0 main_v1
  let main_c : IVec S_ 1 := constantI S_ 1 1#1
  let main_v3 : IVec S_ 1 := (fun x v => Host.reduce IntOp.andi x v reducesTo_S100000x31_S_d0_1 h_S_) main_v2 main_c
  let main_v4 : FVec F S31x128 .f32 := Host.absf main_arg2
  let main_cst_0 : FVec F S_ .f32 := constant S_ .f32 0x7F800000#32
  let main_v5 : FVec F S31x128 .f32 := broadcastInDim S31x128 ![] bcast_S_S31x128 main_cst_0
  let main_v6 : IVec S31x128 1 := cmpf .olt main_v4 main_v5
  let main_c_1 : IVec S_ 1 := constantI S_ 1 1#1
  let main_v7 : IVec S_ 1 := (fun x v => Host.reduce IntOp.andi x v reducesTo_S31x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S100000x31 : Shape := ⟨2, ![100000, 31]⟩
abbrev S2x1600000 : Shape := ⟨2, ![2, 1600000]⟩
abbrev S31x128 : Shape := ⟨2, ![31, 128]⟩
abbrev S128 : Shape := ⟨1, ![128]⟩
abbrev S128x128 : Shape := ⟨2, ![128, 128]⟩
abbrev S128x20 : Shape := ⟨2, ![128, 20]⟩
abbrev S20 : Shape := ⟨1, ![20]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x128 : Shape := ⟨2, ![1, 128]⟩
abbrev S100000x128 : Shape := ⟨2, ![100000, 128]⟩
abbrev S5000x31 : Shape := ⟨2, ![5000, 31]⟩
abbrev S5000x128 : Shape := ⟨2, ![5000, 128]⟩
abbrev S1700000x128 : Shape := ⟨2, ![1700000, 128]⟩
abbrev S1x20 : Shape := ⟨2, ![1, 20]⟩
abbrev S100000x20 : Shape := ⟨2, ![100000, 20]⟩
abbrev S5000x20 : Shape := ⟨2, ![5000, 20]⟩

abbrev nBuf : Space → Nat
  | .hbm => 88
  | .vmem => 20
  | .smem => 0
  | _ => 0

abbrev bufTy : (tb : Table) → Fin (tcTables nBuf tb) → BufTy
  | .hbm, ⟨0, _⟩ => ⟨S100000x31, .f32⟩
  | .hbm, ⟨1, _⟩ => ⟨S2x1600000, .i32⟩
  | .hbm, ⟨2, _⟩ => ⟨S31x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x20, .f32⟩
  | .hbm, ⟨9, _⟩ => ⟨S20, .f32⟩
  | .hbm, ⟨10, _⟩ => ⟨S100000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S1x1600000, .i32⟩
  | .hbm, ⟨15, _⟩ => ⟨S1600000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S1x128, .f32⟩
  | .hbm, ⟨50, _⟩ => ⟨S100000x128, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x128, .f32⟩
  | .hbm, ⟨60, _⟩ => ⟨S1700000x1, .f32⟩
  | .hbm, ⟨61, _⟩ => ⟨S1700000x128, .f32⟩
  | .hbm, ⟨62, _⟩ => ⟨S1700000x128, .f32⟩
  | .hbm, ⟨63, _⟩ => ⟨S_, .f32⟩
  | .hbm, ⟨64, _⟩ => ⟨S100000x128, .f32⟩
  | .hbm, ⟨65, _⟩ => ⟨S1700000x1, .i32⟩
  | .hbm, ⟨66, _⟩ => ⟨S100000x128, .f32⟩
  | .hbm, ⟨67, _⟩ => ⟨S1x128, .f32⟩
  | .hbm, ⟨68, _⟩ => ⟨S100000x128, .f32⟩
  | .hbm, ⟨69, _⟩ => ⟨S_, .i32⟩
  | .hbm, ⟨70, _⟩ => ⟨S1700000, .i32⟩
  | .hbm, ⟨71, _⟩ => ⟨S1700000, .i1⟩
  | .hbm, ⟨72, _⟩ => ⟨S_, .i32⟩
  | .hbm, ⟨73, _⟩ => ⟨S1700000, .i32⟩
  | .hbm, ⟨74, _⟩ => ⟨S1700000, .i32⟩
  | .hbm, ⟨75, _⟩ => ⟨S1700000, .i32⟩
  | .hbm, ⟨76, _⟩ => ⟨S1700000x1, .i32⟩
  | .hbm, ⟨77, _⟩ => ⟨S1700000x128, .f32⟩
  | .hbm, ⟨78, _⟩ => ⟨S1700000x1, .f32⟩
  | .hbm, ⟨79, _⟩ => ⟨S1700000x128, .f32⟩
  | .hbm, ⟨80, _⟩ => ⟨S1700000x128, .f32⟩
  | .hbm, ⟨81, _⟩ => ⟨S_, .f32⟩
  | .hbm, ⟨82, _⟩ => ⟨S100000x128, .f32⟩
  | .hbm, ⟨83, _⟩ => ⟨S1700000x1, .i32⟩
  | .hbm, ⟨84, _⟩ => ⟨S100000x128, .f32⟩
  | .hbm, ⟨85, _⟩ => ⟨S1x128, .f32⟩
  | .hbm, ⟨86, _⟩ => ⟨S1x20, .f32⟩
  | .hbm, ⟨87, _⟩ => ⟨S100000x20, .f32⟩
  | .local _ .vmem, ⟨0, _⟩ => ⟨S5000x31, .f32⟩
  | .local _ .vmem, ⟨1, _⟩ => ⟨S5000x31, .f32⟩
  | .local _ .vmem, ⟨2, _⟩ => ⟨S31x128, .f32⟩
  | .local _ .vmem, ⟨3, _⟩ => ⟨S1x128, .f32⟩
  | .local _ .vmem, ⟨4, _⟩ => ⟨S128x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S1x128, .f32⟩
  | .local _ .vmem, ⟨10, _⟩ => ⟨S128x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S1x128, .f32⟩
  | .local _ .vmem, ⟨16, _⟩ => ⟨S128x20, .f32⟩
  | .local _ .vmem, ⟨17, _⟩ => ⟨S1x20, .f32⟩
  | .local _ .vmem, ⟨18, _⟩ => ⟨S5000x20, .f32⟩
  | .local _ .vmem, ⟨19, _⟩ => ⟨S5000x20, .f32⟩
  | _, _ => ⟨S100000x31, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_6 : Ref sig .tc := ⟨.hbm, 51, rfl⟩
abbrev main_v33 : Ref sig .tc := ⟨.hbm, 52, rfl⟩
abbrev main_v34 : Ref sig .tc := ⟨.hbm, 53, rfl⟩
abbrev main_c_7 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_9 : Ref sig .tc := ⟨.hbm, 69, rfl⟩
abbrev main_v48 : Ref sig .tc := ⟨.hbm, 70, rfl⟩
abbrev main_v49 : Ref sig .tc := ⟨.hbm, 71, rfl⟩
abbrev main_c_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_11 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg4_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem4_0 : DmaSem sig := 18
abbrev cc2_sem4_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x31 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S31x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x20 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x20 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x20 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S128_S1x128 : S128.ShapeCasts S1x128
  inb_S5000x31_S5000x31_0_0 : ∀ a, (![0, 0] : Fin 2 → Nat) a + S5000x31.size a ≤ S5000x31.size a
  h_S5000x31 : 0 < S5000x31.numel
  bitsLt_bf16_f32 : FTy.bits .bf16 < FTy.bits .f32
  inb_S31x128_S31x128_0_0 : ∀ a, (![0, 0] : Fin 2 → Nat) a + S31x128.size a ≤ S31x128.size a
  h_S31x128 : 0 < S31x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  inb_S5000x128_S5000x128_0_0 : ∀ a, (![0, 0] : Fin 2 → Nat) a + S5000x128.size a ≤ S5000x128.size a
  h_S5000x128 : 0 < S5000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S5000x128_S5000x128 : S5000x128.ShapeCasts S5000x128
  shapeCasts_S20_S1x20 : S20.ShapeCasts S1x20
  inb_S128x20_S128x20_0_0 : ∀ a, (![0, 0] : Fin 2 → Nat) a + S128x20.size a ≤ S128x20.size a
  h_S128x20 : 0 < S128x20.numel
  inb_S1x20_S1x20_0_0 : ∀ a, (![0, 0] : Fin 2 → Nat) a + S1x20.size a ≤ S1x20.size a
  h_S1x20 : 0 < S1x20.numel
  shapeCasts_S1x20_S1x20 : S1x20.ShapeCasts S1x20
  broadcasts_S1x20_S5000x20 : S1x20.Broadcasts S5000x20
  inb_S5000x20_S5000x20_0_0 : ∀ a, (![0, 0] : Fin 2 → Nat) a + S5000x20.size a ≤ S5000x20.size a
  h_S5000x20 : 0 < S5000x20.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x31_S31x128_S5000x128_1_0_0_1_n_n_wf : DotDims.WF S5000x31 S31x128 S5000x128 [1] [0] [0] [1] [] []
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x20_S5000x20_1_0_0_1_n_n_wf : DotDims.WF S5000x128 S128x20 S5000x20 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x31.size a ≤ S100000x31.size a
  hwx0_0 : ∀ i : grid0.Coords, EltTy.bits .f32 = 32 ∨ (Rect.block (s := S100000x31) S5000x31.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S31x128.size a ≤ S31x128.size a
  hwx0_1 : ∀ i : grid0.Coords, EltTy.bits .f32 = 32 ∨ (Rect.block (s := S31x128) S31x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x20.size a ≤ S128x20.size a
  hwx2_2 : ∀ i : grid2.Coords, EltTy.bits .f32 = 32 ∨ (Rect.block (s := S128x20) S128x20.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x20.size a ≤ S1x20.size a
  hwx2_3 : ∀ i : grid2.Coords, EltTy.bits .f32 = 32 ∨ (Rect.block (s := S1x20) S1x20.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x20.size a ≤ S100000x20.size a
  hwx2_4 : ∀ i : grid2.Coords, EltTy.bits .f32 = 32 ∨ (Rect.block (s := S100000x20) S5000x20.size (cc2_transform_4 i) (hinb2_4 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x31_S31x128_S5000x128_1_0_0_1_n_n : DotDims S5000x31 S31x128 S5000x128 where
  lhsContracting := [1]
  rhsContracting := [0]
  lhsNonContracting := [0]
  rhsNonContracting := [1]
  lhsBatch := []
  rhsBatch := []
  wf := dot_S5000x31_S31x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x20_S5000x20_1_0_0_1_n_n : DotDims S5000x128 S128x20 S5000x20 where
  lhsContracting := [1]
  rhsContracting := [0]
  lhsNonContracting := [0]
  rhsNonContracting := [1]
  lhsBatch := []
  rhsBatch := []
  wf := dot_S5000x128_S128x20_S5000x20_1_0_0_1_n_n_wf

abbrev win0_0 : Pipeline.Window sig grid0 :=
  Pipeline.Window.ofSpec (Memref.whole main_arg0) S5000x31.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S31x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v32) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v60) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x20.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v62) S1x20.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v63) S5000x20.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x31 : Shape := ⟨2, ![100000, 31]⟩
abbrev S2x1600000 : Shape := ⟨2, ![2, 1600000]⟩
abbrev S31x128 : Shape := ⟨2, ![31, 128]⟩
abbrev S128 : Shape := ⟨1, ![128]⟩
abbrev S128x128 : Shape := ⟨2, ![128, 128]⟩
abbrev S128x20 : Shape := ⟨2, ![128, 20]⟩
abbrev S20 : Shape := ⟨1, ![20]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S100000x128 : Shape := ⟨2, ![100000, 128]⟩
abbrev S1x128 : Shape := ⟨2, ![1, 128]⟩
abbrev S_ : Shape := ⟨0, ![]⟩
abbrev S1700000x1 : Shape := ⟨2, ![1700000, 1]⟩
abbrev S1700000x128 : Shape := ⟨2, ![1700000, 128]⟩
abbrev S100000x20 : Shape := ⟨2, ![100000, 20]⟩
abbrev S1x20 : Shape := ⟨2, ![1, 20]⟩

abbrev nBuf : Space → Nat
  | .hbm => 138
  | .vmem => 0
  | .smem => 0
  | _ => 0

abbrev hbmTy0_0 (i : Nat) : BufTy := match i % 128 with
  | 0 => ⟨S100000x31, .f32⟩
  | 1 => ⟨S2x1600000, .i32⟩
  | 2 => ⟨S31x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x20, .f32⟩
  | 9 => ⟨S20, .f32⟩
  | 10 => ⟨S100000, .i32⟩
  | 11 => ⟨S1x1600000, .i32⟩
  | 12 => ⟨S1600000, .i32⟩
  | 13 => ⟨S1700000, .i32⟩
  | 14 => ⟨S1x1600000, .i32⟩
  | 15 => ⟨S1600000, .i32⟩
  | 16 => ⟨S1700000, .i32⟩
  | 17 => ⟨S100000x128, .f32⟩
  | 18 => ⟨S1x128, .f32⟩
  | 19 => ⟨S100000x128, .f32⟩
  | 20 => ⟨S100000x128, .f32⟩
  | 21 => ⟨S_, .f32⟩
  | 22 => ⟨S100000x128, .f32⟩
  | 23 => ⟨S100000x128, .f32⟩
  | 24 => ⟨S100000x128, .f32⟩
  | 25 => ⟨S_, .f32⟩
  | 26 => ⟨S1700000, .f32⟩
  | 27 => ⟨S_, .f32⟩
  | 28 => ⟨S100000, .f32⟩
  | 29 => ⟨S1700000x1, .i32⟩
  | 30 => ⟨S100000, .f32⟩
  | 31 => ⟨S_, .f32⟩
  | 32 => ⟨S100000, .f32⟩
  | 33 => ⟨S100000, .i1⟩
  | 34 => ⟨S100000, .f32⟩
  | 35 => ⟨S_, .f32⟩
  | 36 => ⟨S100000, .f32⟩
  | 37 => ⟨S100000, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000, .f32⟩
  | 56 => ⟨S1700000, .f32⟩
  | 57 => ⟨S_, .i32⟩
  | 58 => ⟨S1700000, .i32⟩
  | 59 => ⟨S1700000, .i1⟩
  | 60 => ⟨S_, .i32⟩
  | 61 => ⟨S1700000, .i32⟩
  | 62 => ⟨S1700000, .i32⟩
  | 63 => ⟨S1700000, .i32⟩
  | 64 => ⟨S1700000x1, .i32⟩
  | 65 => ⟨S1700000x128, .f32⟩
  | 66 => ⟨S1700000x1, .f32⟩
  | 67 => ⟨S1700000x128, .f32⟩
  | 68 => ⟨S1700000x128, .f32⟩
  | 69 => ⟨S_, .f32⟩
  | 70 => ⟨S100000x128, .f32⟩
  | 71 => ⟨S1700000x1, .i32⟩
  | 72 => ⟨S100000x128, .f32⟩
  | 73 => ⟨S1x128, .f32⟩
  | 74 => ⟨S100000x128, .f32⟩
  | 75 => ⟨S100000x128, .f32⟩
  | 76 => ⟨S_, .f32⟩
  | 77 => ⟨S100000x128, .f32⟩
  | 78 => ⟨S100000x128, .f32⟩
  | 79 => ⟨S100000x128, .f32⟩
  | 80 => ⟨S_, .f32⟩
  | 81 => ⟨S1700000, .f32⟩
  | 82 => ⟨S_, .f32⟩
  | 83 => ⟨S100000, .f32⟩
  | 84 => ⟨S1700000x1, .i32⟩
  | 85 => ⟨S100000, .f32⟩
  | 86 => ⟨S_, .f32⟩
  | 87 => ⟨S100000, .f32⟩
  | 88 => ⟨S100000, .i1⟩
  | 89 => ⟨S100000, .f32⟩
  | 90 => ⟨S_, .f32⟩
  | 91 => ⟨S100000, .f32⟩
  | 92 => ⟨S100000, .f32⟩
  | 93 => ⟨S_, .i32⟩
  | 94 => ⟨S1700000, .i32⟩
  | 95 => ⟨S1700000, .i1⟩
  | 96 => ⟨S_, .i32⟩
  | 97 => ⟨S1700000, .i32⟩
  | 98 => ⟨S1700000, .i32⟩
  | 99 => ⟨S1700000, .i32⟩
  | 100 => ⟨S1700000x1, .i32⟩
  | 101 => ⟨S1700000, .f32⟩
  | 102 => ⟨S_, .i32⟩
  | 103 => ⟨S1700000, .i32⟩
  | 104 => ⟨S1700000, .i1⟩
  | 105 => ⟨S_, .i32⟩
  | 106 => ⟨S1700000, .i32⟩
  | 107 => ⟨S1700000, .i32⟩
  | 108 => ⟨S1700000, .i32⟩
  | 109 => ⟨S1700000x1, .i32⟩
  | 110 => ⟨S1700000, .f32⟩
  | 111 => ⟨S1700000, .f32⟩
  | 112 => ⟨S_, .i32⟩
  | 113 => ⟨S1700000, .i32⟩
  | 114 => ⟨S1700000, .i1⟩
  | 115 => ⟨S_, .i32⟩
  | 116 => ⟨S1700000, .i32⟩
  | 117 => ⟨S1700000, .i32⟩
  | 118 => ⟨S1700000, .i32⟩
  | 119 => ⟨S1700000x1, .i32⟩
  | 120 => ⟨S1700000x128, .f32⟩
  | 121 => ⟨S1700000x1, .f32⟩
  | 122 => ⟨S1700000x128, .f32⟩
  | 123 => ⟨S1700000x128, .f32⟩
  | 124 => ⟨S_, .f32⟩
  | 125 => ⟨S100000x128, .f32⟩
  | 126 => ⟨S1700000x1, .i32⟩
  | 127 => ⟨S100000x128, .f32⟩
  | _ => ⟨S100000x31, .f32⟩

abbrev hbmTy0_1 (i : Nat) : BufTy := match i % 128 with
  | 0 => ⟨S1x128, .f32⟩
  | 1 => ⟨S100000x128, .f32⟩
  | 2 => ⟨S100000x128, .f32⟩
  | 3 => ⟨S_, .f32⟩
  | 4 => ⟨S100000x128, .f32⟩
  | 5 => ⟨S100000x128, .f32⟩
  | 6 => ⟨S100000x20, .f32⟩
  | 7 => ⟨S1x20, .f32⟩
  | 8 => ⟨S100000x20, .f32⟩
  | 9 => ⟨S100000x20, .f32⟩
  | _ => ⟨S100000x31, .f32⟩

abbrev hbmTy (i : Nat) : BufTy := match i / 128 with
  | 0 => hbmTy0_0 i
  | 1 => hbmTy0_1 i
  | _ => ⟨S100000x31, .f32⟩

abbrev bufTy : (tb : Table) → Fin (tcTables nBuf tb) → BufTy
  | .hbm, ⟨i, _⟩ => hbmTy i
  | _, _ => ⟨S100000x31, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call0_cst : Ref sig .tc := ⟨.hbm, 21, rfl⟩
abbrev main_call0_v0 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_cst_0 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_1 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_2 : Ref sig .tc := ⟨.hbm, 35, rfl⟩
abbrev main_v20 : Ref sig .tc := ⟨.hbm, 36, rfl⟩
abbrev main_v21 : Ref sig .tc := ⟨.hbm, 37, rfl⟩
abbrev main_c : Ref sig .tc := ⟨.hbm, 38, rfl⟩
abbrev main_v22 : Ref sig .tc := ⟨.hbm, 39, rfl⟩
abbrev main_v23 : Ref sig .tc := ⟨.hbm, 40, rfl⟩
abbrev main_c_3 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_4 : Ref sig .tc := ⟨.hbm, 47, rfl⟩
abbrev main_v29 : Ref sig .tc := ⟨.hbm, 48, rfl⟩
abbrev main_v30 : Ref sig .tc := ⟨.hbm, 49, rfl⟩
abbrev main_c_5 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_c_6 : Ref sig .tc := ⟨.hbm, 57, rfl⟩
abbrev main_v37 : Ref sig .tc := ⟨.hbm, 58, rfl⟩
abbrev main_v38 : Ref sig .tc := ⟨.hbm, 59, rfl⟩
abbrev main_c_7 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_8 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_call2_cst : Ref sig .tc := ⟨.hbm, 76, rfl⟩
abbrev main_call2_v0 : Ref sig .tc := ⟨.hbm, 77, rfl⟩
abbrev main_v53 : Ref sig .tc := ⟨.hbm, 78, rfl⟩
abbrev main_v54 : Ref sig .tc := ⟨.hbm, 79, rfl⟩
abbrev main_cst_9 : Ref sig .tc := ⟨.hbm, 80, rfl⟩
abbrev main_v55 : Ref sig .tc := ⟨.hbm, 81, rfl⟩
abbrev main_cst_10 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_11 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_12 : Ref sig .tc := ⟨.hbm, 90, rfl⟩
abbrev main_v62 : Ref sig .tc := ⟨.hbm, 91, rfl⟩
abbrev main_v63 : Ref sig .tc := ⟨.hbm, 92, rfl⟩
abbrev main_c_13 : Ref sig .tc := ⟨.hbm, 93, rfl⟩
abbrev main_v64 : Ref sig .tc := ⟨.hbm, 94, rfl⟩
abbrev main_v65 : Ref sig .tc := ⟨.hbm, 95, rfl⟩
abbrev main_c_14 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_c_15 : Ref sig .tc := ⟨.hbm, 102, rfl⟩
abbrev main_v71 : Ref sig .tc := ⟨.hbm, 103, rfl⟩
abbrev main_v72 : Ref sig .tc := ⟨.hbm, 104, rfl⟩
abbrev main_c_16 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_c_17 : Ref sig .tc := ⟨.hbm, 112, rfl⟩
abbrev main_v79 : Ref sig .tc := ⟨.hbm, 113, rfl⟩
abbrev main_v80 : Ref sig .tc := ⟨.hbm, 114, rfl⟩
abbrev main_c_18 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_19 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_call4_cst : Ref sig .tc := ⟨.hbm, 131, rfl⟩
abbrev main_call4_v0 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S20_S1x20_1 : S20.BroadcastsInDim S1x20 (![1] : Fin 1 → Fin S1x20.rank)
  bcast_S1x20_S100000x20_0_1 : S1x20.BroadcastsInDim S100000x20 (![0, 1] : Fin 2 → Fin S100000x20.rank)
  dot_S100000x31_S31x128_S100000x128_1_0_0_1_n_n_wf : DotDims.WF S100000x31 S31x128 S100000x128 [1] [0] [0] [1] [] []
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x20_S100000x20_1_0_0_1_n_n_wf : DotDims.WF S100000x128 S128x20 S100000x20 [1] [0] [0] [1] [] []

variable [Facts₀]

def dot_S100000x31_S31x128_S100000x128_1_0_0_1_n_n : DotDims S100000x31 S31x128 S100000x128 where
  lhsContracting := [1]
  rhsContracting := [0]
  lhsNonContracting := [0]
  rhsNonContracting := [1]
  lhsBatch := []
  rhsBatch := []
  wf := dot_S100000x31_S31x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x20_S100000x20_1_0_0_1_n_n : DotDims S100000x128 S128x20 S100000x20 where
  lhsContracting := [1]
  rhsContracting := [0]
  lhsNonContracting := [0]
  rhsNonContracting := [1]
  lhsBatch := []
  rhsBatch := []
  wf := dot_S100000x128_S128x20_S100000x20_1_0_0_1_n_n_wf

class Facts : Prop extends Facts₀ where

variable [Facts]
-- ==== Proof.DenseStages.lean ====
/-
  The dense stages of the network as functions of whole arrays, entry by entry, on the extended reals.

  Three stages separate the graph aggregations. Each takes an array whose rows are nodes, adds a bias to every row
  (after a first matrix product, in the encoder's case), rectifies against zero and multiplies by a weight matrix:

    encoder, then the first layer's matrix   relu (x · W_enc + b_enc) · W₁
    a layer's activation, then the next one  relu (A + b) · W
    the last activation, then the head       relu (A + b) · W + c

  Entry (p, q) of each result reads its row-indexed inputs at row p only. So the same formula describes a block of
  rows computed alone and the corresponding rows of the whole result: rows that agree give entries that agree.
-/
import Idealize.ShloMosaic.PureOps.Ideal
import Idealize.ShloMosaic.Lib.ValueIdx

noncomputable section

namespace Cert.DenseStages

open Idealize.ShloMosaic Idealize.ShloMosaic.ValueIdx
open scoped BigOperators

variable {M M' K N : ℕ}

/-- The rectifier's floor: the extended real that the zero word denotes. Both programs spell it by the same word, so
    it is never evaluated. -/
abbrev floor0 : EReal := Ideal.ofBits .f32 0x00000000#32

/-- Entry `(p, k)` of a rectified affine layer, `max (∑ j, l (p, j) · W (j, k) + b k) 0`. -/
def affineRelu (l : FVec Ideal ⟨2, ![M, K]⟩ .f32) (W : FVec Ideal ⟨2, ![K, N]⟩ .f32) (b : FVec Ideal ⟨1, ![N]⟩ .f32)
    (p : Fin M) (k : Fin N) : EReal :=
  max ((∑ j : Fin K, l (ix2 p j) * W (ix2 j k)) + b (ix1 k)) floor0

/-- Entry `(p, k)` of a rectified shifted array, `max (A (p, k) + b k) 0`. -/
def shiftRelu (A : FVec Ideal ⟨2, ![M, N]⟩ .f32) (b : FVec Ideal ⟨1, ![N]⟩ .f32) (p : Fin M) (k : Fin N) : EReal :=
  max (A (ix2 p k) + b (ix1 k)) floor0

/-- Rows `h` times a matrix `W`: entry `(p, q)` is `∑ k, h p k · W (k, q)`. -/
def timesMatrix (h : Fin M → Fin K → EReal) (W : FVec Ideal ⟨2, ![K, N]⟩ .f32) : FVec Ideal ⟨2, ![M, N]⟩ .f32 :=
  fun i => ∑ k : Fin K, h (i 0) k * W (ix2 k (i 1))

theorem timesMatrix_apply (h : Fin M → Fin K → EReal) (W : FVec Ideal ⟨2, ![K, N]⟩ .f32) (p : Fin M) (q : Fin N) :
    timesMatrix h W (ix2 p q) = ∑ k : Fin K, h p k * W (ix2 k q) := rfl

/-- The encoder followed by the first layer's matrix, `relu (x · W_enc + b_enc) · W₁`. -/
def encodeProject {D : ℕ} (x : FVec Ideal ⟨2, ![M, D]⟩ .f32) (We : FVec Ideal ⟨2, ![D, K]⟩ .f32) (be : FVec Ideal ⟨1, ![K]⟩ .f32)
    (W : FVec Ideal ⟨2, ![K, N]⟩ .f32) : FVec Ideal ⟨2, ![M, N]⟩ .f32 :=
  timesMatrix (affineRelu x We be) W

/-- A layer's activation followed by the next layer's matrix, `relu (A + b) · W`. -/
def activateProject (A : FVec Ideal ⟨2, ![M, K]⟩ .f32) (b : FVec Ideal ⟨1, ![K]⟩ .f32) (W : FVec Ideal ⟨2, ![K, N]⟩ .f32) :
    FVec Ideal ⟨2, ![M, N]⟩ .f32 :=
  timesMatrix (shiftRelu A b) W

/-- The last activation followed by the head, `relu (A + b) · W + c`. -/
def activateClassify (A : FVec Ideal ⟨2, ![M, K]⟩ .f32) (b : FVec Ideal ⟨1, ![K]⟩ .f32) (W : FVec Ideal ⟨2, ![K, N]⟩ .f32)
    (c : FVec Ideal ⟨1, ![N]⟩ .f32) : FVec Ideal ⟨2, ![M, N]⟩ .f32 :=
  fun i => timesMatrix (shiftRelu A b) W i + c (ix1 (i 1))

theorem activateClassify_apply (A : FVec Ideal ⟨2, ![M, K]⟩ .f32) (b : FVec Ideal ⟨1, ![K]⟩ .f32) (W : FVec Ideal ⟨2, ![K, N]⟩ .f32)
    (c : FVec Ideal ⟨1, ![N]⟩ .f32) (p : Fin M) (q : Fin N) :
    activateClassify A b W c (ix2 p q) = (∑ k : Fin K, shiftRelu A b p k * W (ix2 k q)) + c (ix1 q) := rfl

/-! ## Rows that agree give entries that agree -/

/-- A rectified affine layer reads its left operand at one row. -/
theorem affineRelu_row (l : FVec Ideal ⟨2, ![M, K]⟩ .f32) (l' : FVec Ideal ⟨2, ![M', K]⟩ .f32) (W : FVec Ideal ⟨2, ![K, N]⟩ .f32)
    (b : FVec Ideal ⟨1, ![N]⟩ .f32) (p : Fin M) (p' : Fin M') (h : ∀ j : Fin K, l' (ix2 p' j) = l (ix2 p j)) (k : Fin N) :
    affineRelu l' W b p' k = affineRelu l W b p k := by
  unfold affineRelu
  rw [Finset.sum_congr rfl fun j _ => by rw [h j]]

/-- A rectified shifted array reads its array at one row. -/
theorem shiftRelu_row (A : FVec Ideal ⟨2, ![M, N]⟩ .f32) (A' : FVec Ideal ⟨2, ![M', N]⟩ .f32) (b : FVec Ideal ⟨1, ![N]⟩ .f32)
    (p : Fin M) (p' : Fin M') (h : ∀ k : Fin N, A' (ix2 p' k) = A (ix2 p k)) (k : Fin N) :
    shiftRelu A' b p' k = shiftRelu A b p k := by
  unfold shiftRelu
  rw [h k]

/-- Rows times a matrix: entry `(p', q)` over rows `h'` is entry `(p, q)` over rows `h` when row `p'` of `h'` is row `p`
    of `h`. -/
theorem timesMatrix_row (h : Fin M → Fin K → EReal) (h' : Fin M' → Fin K → EReal) (W : FVec Ideal ⟨2, ![K, N]⟩ .f32)
    (p : Fin M) (p' : Fin M') (e : ∀ k : Fin K, h' p' k = h p k) (q : Fin N) :
    timesMatrix h' W (ix2 p' q) = timesMatrix h W (ix2 p q) := by
  rw [timesMatrix_apply, timesMatrix_apply]
  exact Finset.sum_congr rfl fun k _ => by rw [e k]

end Cert.DenseStages

end
-- ==== Proof.BlockLayout.lean ====
/-
  Layout helpers shared by the three kernels: the one row of a `[1, n]` array read as a vector, and the spelling of
  "every offset is zero" that a whole-block load or store is stated with.
-/
import Idealize.ShloMosaic.PureOps.Ideal
import Idealize.ShloMosaic.Lib.ValueIdx

noncomputable section

namespace Cert.BlockLayout

open Idealize.ShloMosaic Idealize.ShloMosaic.ValueIdx

/-- The one row of a `[1, n]` array, as a vector: a bias as the kernels receive it, read as the bias. -/
def rowVec {n : ℕ} (r : FVec Ideal ⟨2, ![1, n]⟩ .f32) : FVec Ideal ⟨1, ![n]⟩ .f32 := fun i => r (ix2 (0 : Fin 1) (i 0))

theorem rowVec_apply {n : ℕ} (r : FVec Ideal ⟨2, ![1, n]⟩ .f32) (k : Fin n) : rowVec r (ix1 k) = r (ix2 (0 : Fin 1) k) := rfl

/-- Offsets `(0, 0)` are the zero offsets. -/
theorem zero_offsets : (![0, 0] : Fin 2 → Nat) = fun _ => 0 := funext fun a => by fin_cases a <;> rfl

end Cert.BlockLayout

end
-- ==== Proof.LibPlainDot.lean ====
/-
  A plain matrix product read at coordinates. For dimension numbers that contract the left operand's columns with
  the right operand's rows and have no batch axis, a product of an `[M, K]` by a `[K, N]` matrix into a zero accumulator
  is, at the extended reals and at `(p, q)`, the sum over `k` of `l (p, k) · r (k, q)`.
-/
import Idealize.ShloMosaic.PureOps.Ideal.Laws
import Idealize.ShloMosaic.Lib.ValueIdx

noncomputable section

namespace Cert.LibPlainDot

open Idealize.ShloMosaic Idealize.ShloMosaic.ValueIdx
open scoped BigOperators

variable {M K N : Nat} (d : DotDims ⟨2, ![M, K]⟩ ⟨2, ![K, N]⟩ ⟨2, ![M, N]⟩)

/-- The left operand's row coordinate is the result's row. -/
theorem lhsIdx_row (hlb : d.lhsBatch = []) (hln : d.lhsNonContracting = [0]) (j : (⟨2, ![M, N]⟩ : Shape).Idx) (k : d.contr.Idx) :
    (d.lhsIdx j k 0).val = (j 0).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The right operand's column coordinate is the result's column. -/
theorem rhsIdx_col (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The product at `(p, q)`. -/
theorem matmul_plain_apply {φ₁ φ₂ : FTy} (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  have hr : d.contr.rank = 1 := by rw [d.rank_contr, hlc]; rfl
  have hs : d.contr.size ⟨0, by omega⟩ = K := by
    rw [d.size_contr 0 (by rw [hlc]; exact Nat.one_pos)]
    simp [hlc]
  rw [Ideal.matmul_constant_zero_apply, ← Equiv.sum_comp (contrEquiv1 d K hr hs).symm]
  refine Finset.sum_congr rfl fun k _ => ?_
  have e0 : (((contrEquiv1 d K hr hs).symm k) ⟨0, by omega⟩ : ℕ) = k.val := contrEquiv1_symm_val d K hr hs k
  have hl : d.lhsIdx (ix2 p q) ((contrEquiv1 d K hr hs).symm k) = ix2 p k := by
    refine funext fun a => Fin.ext ?_
    match a with
    | ⟨0, _⟩ => exact lhsIdx_row d hlb hln (ix2 p q) _
    | ⟨1, _⟩ => exact (d.lhsIdx_val_of_single (cl := 1) hlc (ix2 p q) _).trans e0
  have hrr : d.rhsIdx (ix2 p q) ((contrEquiv1 d K hr hs).symm k) = ix2 k q := by
    refine funext fun a => Fin.ext ?_
    match a with
    | ⟨0, _⟩ => exact (d.rhsIdx_val_of_single (cr := 0) hrc (ix2 p q) _).trans e0
    | ⟨1, _⟩ => exact rhsIdx_col d hlb hrb hln hrn (ix2 p q) _
  rw [hl, hrr]

end Cert.LibPlainDot

end
-- ==== Proof.EncoderRegion.lean ====
/-
  The first kernel: the encoder followed by the first layer's matrix.

  The kernel works on 20 blocks of 5000 nodes. At block `t` it loads rows `5000 t … 5000 t + 4999` of the node
  features, the whole encoder matrix, the encoder bias as a row and the whole first matrix, and stores
  `relu (x · W_enc + b_enc) · W₁` of them as rows `5000 t …` of its result. Entry `(p, q)` of that product reads the
  features at row `p` only, so the block computed alone holds the corresponding rows of the product of the whole arrays;
  the 20 blocks tile the 100000 rows, so after the last block the result array is that product, whatever it held before.
-/
import proofs.«171486_j17678085390367_1_alg».proof.Proof.Gen.KernelIdeal.Frame
import proofs.«171486_j17678085390367_1_alg».proof.Proof.DenseStages
import proofs.«171486_j17678085390367_1_alg».proof.Proof.BlockLayout
import proofs.«171486_j17678085390367_1_alg».proof.Proof.LibPlainDot
import Idealize.ShloMosaic.Lib.ValueLayout
import Idealize.ShloMosaic.Lib.Pipeline.Value

set_option maxRecDepth 16384

noncomputable section

namespace Cert.EncoderRegion

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.DenseStages Cert.BlockLayout
open scoped BigOperators

/-! ## What the body computes, entry by entry -/

/-- The body's stored value at `(r, q)` of the block: the stage's formula of the loaded blocks. -/
theorem payload_apply (x0 : Vec Ideal S5000x31 .f32) (x1 : Vec Ideal S31x128 .f32) (x2 : Vec Ideal S1x128 .f32)
    (x3 : Vec Ideal S128x128 .f32) (r : Fin 5000) (q : Fin 128) :
    k0_pay1 (F := Ideal) x0 x1 x2 x3 (ix2 r q) = encodeProject x0 x1 (rowVec x2) x3 (ix2 r q) := by
  unfold k0_pay1
  refine (Cert.LibPlainDot.matmul_plain_apply dot_S5000x128_S128x128_S5000x128_1_0_0_1_n_n rfl rfl rfl rfl rfl rfl none _ _ r q).trans ?_
  show _ = ∑ k : Fin 128, affineRelu x0 x1 (rowVec x2) r k * x3 (ix2 k q)
  refine Finset.sum_congr rfl fun k _ => ?_
  show max (FloatOps.matmul (F := Ideal) dot_S5000x31_S31x128_S5000x128_1_0_0_1_n_n none (truncf .bf16 x0 _) (truncf .bf16 x1 _)
        (constant S5000x128 .f32 0x00000000#32) (ix2 r k)
      + broadcastTo S5000x128 (shapeCast S1x128 x2 shapeCasts_S1x128_S1x128) broadcasts_S1x128_S5000x128 (ix2 r k))
    (Ideal.ofBits .f32 0x00000000#32) * x3 (ix2 k q) = _
  rw [Cert.LibPlainDot.matmul_plain_apply _ rfl rfl rfl rfl rfl rfl, broadcastTo_1b_ab_apply, shapeCast_self]
  rfl

/-- An entry of the block computed alone is the entry of the whole product at the row the block's row came from:
    the feature block's row `j 0` is row `i 0` of the features, the other operands are the whole arrays, the columns
    agree. -/
theorem block_entry (X : FVec Ideal ⟨2, ![100000, 31]⟩ .f32) (We : FVec Ideal ⟨2, ![31, 128]⟩ .f32)
    (b : FVec Ideal ⟨2, ![1, 128]⟩ .f32) (W : FVec Ideal ⟨2, ![128, 128]⟩ .f32)
    (x0 : Vec Ideal S5000x31 .f32) (x1 : Vec Ideal S31x128 .f32) (x2 : Vec Ideal S1x128 .f32) (x3 : Vec Ideal S128x128 .f32)
    (j : (⟨2, ![5000, 128]⟩ : Shape).Idx) (i : (⟨2, ![100000, 128]⟩ : Shape).Idx)
    (hrow : ∀ d : Fin 31, x0 (ix2 (j 0) d) = X (ix2 (i 0) d)) (hcol : (j 1).val = (i 1).val)
    (h1 : x1 = We) (h2 : x2 = b) (h3 : x3 = W) :
    k0_pay1 (F := Ideal) x0 x1 x2 x3 j = encodeProject X We (rowVec b) W i := by
  subst h1 h2 h3
  obtain ⟨r, q, rfl⟩ : ∃ (r : Fin 5000) (q : Fin 128), j = ix2 r q := ⟨j 0, j 1, eq_ix2 j⟩
  obtain ⟨p, q', rfl⟩ : ∃ (p : Fin 100000) (q' : Fin 128), i = ix2 p q' := ⟨i 0, i 1, eq_ix2 i⟩
  have hq : q = q' := Fin.ext hcol
  subst hq
  rw [payload_apply]
  exact timesMatrix_row _ _ _ p r (fun k => affineRelu_row X x0 x1 (rowVec x2) p r hrow k) q

/-! ## The blocks -/

/-- The printed index maps, decided over the 20 points: the features and the result move together along the rows, at
    block index `t`; every other block index is zero. -/
theorem index_facts : ∀ t : Fin cfg0.N, win0_0.index t (0 : Fin 2) = win0_4.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) ≤ 19 ∧ win0_4.index t (1 : Fin 2) = 0 :=
  (by decide +kernel : ∀ t : Fin grid0.N, _)

/-- Every one of the 20 row blocks is some point's. -/
theorem index_onto : ∀ q : Fin 20, ∃ t : Fin cfg0.N, win0_4.index t = ![q.val, 0] :=
  (by decide +kernel : ∀ q : Fin 20, ∃ t : Fin grid0.N, win0_4.index t = ![q.val, 0])

variable (V : (c : Dev nD) → (b : Ref sig .tc) → Buf (Elt Ideal) ((c : Thread nD τ).loc b))

/-- The array the region's result ends holding, as one function of the arrays the region finds. -/
def result (c : Dev nD) : FVec Ideal ⟨2, ![100000, 128]⟩ .f32 :=
  encodeProject (V c main_arg0) (V c main_arg2) (rowVec (V c main_v31)) (V c main_arg4)

/-- WHAT POINT `t` WRITES BACK is block `t` of that array. -/
theorem flushed_eq (c : Dev nD) (t : Fin cfg0.N) :
    (dat0 (F := Ideal) V c).flushed 4 t = ((cfg0.win 4).blk t).view.read (Elt Ideal) (result V c) := by
  show (cfg0.win 4).cut (grid0.coords t) ((dat0 V c).after 4 t) = _
  rw [after0_4]
  unfold out0_4
  rw [View.canon_unit_zero zero_offsets]
  simp only [View.ld_unit_zero (S := S5000x31) zero_offsets, View.ld_unit_zero (S := S31x128) zero_offsets,
    View.ld_unit_zero (S := S1x128) zero_offsets, View.ld_unit_zero (S := S128x128) zero_offsets]
  obtain ⟨e0, e1, e2, e3, e4, e5, e6, e7, e8, e9⟩ := index_facts t
  funext j
  refine block_entry (V c main_arg0) (V c main_arg2) (V c main_v31) (V c main_arg4)
    (iblk0 V c 0 t) (iblk0 V c 1 t) (iblk0 V c 2 t) (iblk0 V c 3 t) j (((cfg0.win 4).blk t).view.emb j) ?_ ?_ ?_ ?_ ?_
  · intro d
    show V c main_arg0 (((cfg0.win 0).blk t).view.emb (ix2 (j 0) d)) = V c main_arg0 (ix2 ((((cfg0.win 4).blk t).view.emb j) 0) d)
    refine congrArg (V c main_arg0) (funext fun a => Fin.ext ?_)
    match a with
    | ⟨0, _⟩ => show win0_0.index t (0 : Fin 2) * 5000 + 1 * (j 0).val = win0_4.index t (0 : Fin 2) * 5000 + 1 * (j 0).val; omega
    | ⟨1, _⟩ => show win0_0.index t (1 : Fin 2) * 31 + 1 * d.val = d.val; omega
  · show (j 1).val = win0_4.index t (1 : Fin 2) * 128 + 1 * (j 1).val; omega
  · funext y
    show V c main_arg2 (((cfg0.win 1).blk t).view.emb y) = V c main_arg2 y
    refine congrArg (V c main_arg2) (funext fun a => Fin.ext ?_)
    match a with
    | ⟨0, _⟩ => show win0_1.index t (0 : Fin 2) * 31 + 1 * (y 0).val = (y 0).val; omega
    | ⟨1, _⟩ => show win0_1.index t (1 : Fin 2) * 128 + 1 * (y 1).val = (y 1).val; omega
  · funext y
    show V c main_v31 (((cfg0.win 2).blk t).view.emb y) = V c main_v31 y
    refine congrArg (V c main_v31) (funext fun a => Fin.ext ?_)
    match a with
    | ⟨0, _⟩ => show win0_2.index t (0 : Fin 2) * 1 + 1 * (y 0).val = (y 0).val; omega
    | ⟨1, _⟩ => show win0_2.index t (1 : Fin 2) * 128 + 1 * (y 1).val = (y 1).val; omega
  · funext y
    show V c main_arg4 (((cfg0.win 3).blk t).view.emb y) = V c main_arg4 y
    refine congrArg (V c main_arg4) (funext fun a => Fin.ext ?_)
    match a with
    | ⟨0, _⟩ => show win0_3.index t (0 : Fin 2) * 128 + 1 * (y 0).val = (y 0).val; omega
    | ⟨1, _⟩ => show win0_3.index t (1 : Fin 2) * 128 + 1 * (y 1).val = (y 1).val; omega

/-- An index of the result array is in point `t`'s block iff each coordinate is in the block's range on its axis. -/
theorem mem_blk (t : Fin cfg0.N) (i : S100000x128.Idx) :
    i ∈ ((cfg0.win 4).blk t).view.set ↔ ∀ a : Fin 2, win0_4.index t a * S5000x128.size a ≤ (i a).val
      ∧ (i a).val < win0_4.index t a * S5000x128.size a + S5000x128.size a := by
  show i ∈ ((View.whole main_v32).slice (win0_4.rect t)).set ↔ _
  rw [View.set_slice_whole, Rect.mem_set_unit]
  exact Iff.rfl

/-- The 20 blocks tile the 100000 rows: row `r` is in block `r / 5000`. -/
theorem cover (i : S100000x128.Idx) : ∃ t : Fin cfg0.N, (cfg0.win 4).flush t = true ∧ i ∈ ((cfg0.win 4).blk t).view.set := by
  have hi0 : (i 0).val < 100000 := (i 0).isLt
  have hi1 : (i 1).val < 128 := (i 1).isLt
  obtain ⟨t, ht⟩ := index_onto ⟨(i 0).val / 5000, by omega⟩
  have q0 : win0_4.index t (0 : Fin 2) = (i 0).val / 5000 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 128 ≤ (i 1).val ∧ (i 1).val < win0_4.index t (1 : Fin 2) * 128 + 128; omega

/-- THE RESULT ARRAY after the region: `relu (x · W_enc + b_enc) · W₁` of the arrays the region finds. -/
theorem final (c : Dev nD) : (dat0 (F := Ideal) V c).arrAt 4 cfg0.N = result V c :=
  (dat0 (F := Ideal) V c).arrAt_eq_of_cover 4 (result V c) (fun t _ => flushed_eq V c t) cover

end Cert.EncoderRegion

end
-- ==== Proof.LayerRegion.lean ====
/-
  The second kernel: a layer's activation followed by the next layer's matrix.

  The kernel works on 20 blocks of 5000 nodes. At block `t` it loads rows `5000 t … 5000 t + 4999` of the aggregated
  array, the layer's bias as a row and the whole next matrix, and stores `relu (A + b) · W` of them as rows `5000 t …` of
  its result. Entry `(p, q)` reads the aggregated array at row `p` only, so the block computed alone holds the
  corresponding rows of the whole product; the 20 blocks tile the 100000 rows, so after the last block the result array
  is that product, whatever it held before.
-/
import proofs.«171486_j17678085390367_1_alg».proof.Proof.Gen.KernelIdeal.Frame
import proofs.«171486_j17678085390367_1_alg».proof.Proof.DenseStages
import proofs.«171486_j17678085390367_1_alg».proof.Proof.BlockLayout
import proofs.«171486_j17678085390367_1_alg».proof.Proof.LibPlainDot
import Idealize.ShloMosaic.Lib.ValueLayout
import Idealize.ShloMosaic.Lib.Pipeline.Value

set_option maxRecDepth 16384

noncomputable section

namespace Cert.LayerRegion

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.DenseStages Cert.BlockLayout
open scoped BigOperators

/-! ## What the body computes, entry by entry -/

/-- The body's stored value at `(r, q)` of the block: the stage's formula of the loaded blocks. -/
theorem payload_apply (x0 : Vec Ideal S5000x128 .f32) (x1 : Vec Ideal S1x128 .f32) (x2 : Vec Ideal S128x128 .f32)
    (r : Fin 5000) (q : Fin 128) :
    k1_pay1 (F := Ideal) x0 x1 x2 (ix2 r q) = activateProject x0 (rowVec x1) x2 (ix2 r q) := by
  unfold k1_pay1
  refine (Cert.LibPlainDot.matmul_plain_apply dot_S5000x128_S128x128_S5000x128_1_0_0_1_n_n rfl rfl rfl rfl rfl rfl none _ _ r q).trans ?_
  show _ = ∑ k : Fin 128, shiftRelu x0 (rowVec x1) r k * x2 (ix2 k q)
  refine Finset.sum_congr rfl fun k _ => ?_
  show max (shapeCast S5000x128 x0 shapeCasts_S5000x128_S5000x128 (ix2 r k)
      + broadcastTo S5000x128 (shapeCast S1x128 x1 shapeCasts_S1x128_S1x128) broadcasts_S1x128_S5000x128 (ix2 r k))
    (Ideal.ofBits .f32 0x00000000#32) * x2 (ix2 k q) = _
  rw [shapeCast_self, broadcastTo_1b_ab_apply, shapeCast_self]
  rfl

/-- An entry of the block computed alone is the entry of the whole product at the row the block's row came from. -/
theorem block_entry (A : FVec Ideal ⟨2, ![100000, 128]⟩ .f32) (b : FVec Ideal ⟨2, ![1, 128]⟩ .f32) (W : FVec Ideal ⟨2, ![128, 128]⟩ .f32)
    (x0 : Vec Ideal S5000x128 .f32) (x1 : Vec Ideal S1x128 .f32) (x2 : Vec Ideal S128x128 .f32)
    (j : (⟨2, ![5000, 128]⟩ : Shape).Idx) (i : (⟨2, ![100000, 128]⟩ : Shape).Idx)
    (hrow : ∀ d : Fin 128, x0 (ix2 (j 0) d) = A (ix2 (i 0) d)) (hcol : (j 1).val = (i 1).val)
    (h1 : x1 = b) (h2 : x2 = W) :
    k1_pay1 (F := Ideal) x0 x1 x2 j = activateProject A (rowVec b) W i := by
  subst h1 h2
  obtain ⟨r, q, rfl⟩ : ∃ (r : Fin 5000) (q : Fin 128), j = ix2 r q := ⟨j 0, j 1, eq_ix2 j⟩
  obtain ⟨p, q', rfl⟩ : ∃ (p : Fin 100000) (q' : Fin 128), i = ix2 p q' := ⟨i 0, i 1, eq_ix2 i⟩
  have hq : q = q' := Fin.ext hcol
  subst hq
  rw [payload_apply]
  exact timesMatrix_row _ _ _ p r (fun k => shiftRelu_row A x0 (rowVec x1) p r hrow k) q

/-! ## The blocks -/

/-- The printed index maps, decided over the 20 points: the aggregated array and the result move together along the
    rows, at block index `t`; every other block index is zero. -/
theorem index_facts : ∀ t : Fin cfg1.N, win1_0.index t (0 : Fin 2) = win1_3.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) ≤ 19 ∧ win1_3.index t (1 : Fin 2) = 0 :=
  (by decide +kernel : ∀ t : Fin grid1.N, _)

/-- Every one of the 20 row blocks is some point's. -/
theorem index_onto : ∀ q : Fin 20, ∃ t : Fin cfg1.N, win1_3.index t = ![q.val, 0] :=
  (by decide +kernel : ∀ q : Fin 20, ∃ t : Fin grid1.N, win1_3.index t = ![q.val, 0])

variable (V : (c : Dev nD) → (b : Ref sig .tc) → Buf (Elt Ideal) ((c : Thread nD τ).loc b))

/-- The array the region's result ends holding, as one function of the arrays the region finds. -/
def result (c : Dev nD) : FVec Ideal ⟨2, ![100000, 128]⟩ .f32 :=
  activateProject (V c main_v45) (rowVec (V c main_v46)) (V c main_arg6)

/-- WHAT POINT `t` WRITES BACK is block `t` of that array. -/
theorem flushed_eq (c : Dev nD) (t : Fin cfg1.N) :
    (dat1 (F := Ideal) V c).flushed 3 t = ((cfg1.win 3).blk t).view.read (Elt Ideal) (result V c) := by
  show (cfg1.win 3).cut (grid1.coords t) ((dat1 V c).after 3 t) = _
  rw [after1_3]
  unfold out1_3
  rw [View.canon_unit_zero zero_offsets]
  simp only [View.ld_unit_zero (S := S5000x128) zero_offsets, View.ld_unit_zero (S := S1x128) zero_offsets,
    View.ld_unit_zero (S := S128x128) zero_offsets]
  obtain ⟨e0, e1, e2, e3, e4, e5, e6, e7⟩ := index_facts t
  funext j
  refine block_entry (V c main_v45) (V c main_v46) (V c main_arg6)
    (iblk1 V c 0 t) (iblk1 V c 1 t) (iblk1 V c 2 t) j (((cfg1.win 3).blk t).view.emb j) ?_ ?_ ?_ ?_
  · intro d
    show V c main_v45 (((cfg1.win 0).blk t).view.emb (ix2 (j 0) d)) = V c main_v45 (ix2 ((((cfg1.win 3).blk t).view.emb j) 0) d)
    refine congrArg (V c main_v45) (funext fun a => Fin.ext ?_)
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 128 + 1 * d.val = d.val; omega
  · show (j 1).val = win1_3.index t (1 : Fin 2) * 128 + 1 * (j 1).val; omega
  · funext y
    show V c main_v46 (((cfg1.win 1).blk t).view.emb y) = V c main_v46 y
    refine congrArg (V c main_v46) (funext fun a => Fin.ext ?_)
    match a with
    | ⟨0, _⟩ => show win1_1.index t (0 : Fin 2) * 1 + 1 * (y 0).val = (y 0).val; omega
    | ⟨1, _⟩ => show win1_1.index t (1 : Fin 2) * 128 + 1 * (y 1).val = (y 1).val; omega
  · funext y
    show V c main_arg6 (((cfg1.win 2).blk t).view.emb y) = V c main_arg6 y
    refine congrArg (V c main_arg6) (funext fun a => Fin.ext ?_)
    match a with
    | ⟨0, _⟩ => show win1_2.index t (0 : Fin 2) * 128 + 1 * (y 0).val = (y 0).val; omega
    | ⟨1, _⟩ => show win1_2.index t (1 : Fin 2) * 128 + 1 * (y 1).val = (y 1).val; omega

/-- An index of the result array is in point `t`'s block iff each coordinate is in the block's range on its axis. -/
theorem mem_blk (t : Fin cfg1.N) (i : S100000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v47).slice (win1_3.rect t)).set ↔ _
  rw [View.set_slice_whole, Rect.mem_set_unit]
  exact Iff.rfl

/-- The 20 blocks tile the 100000 rows: row `r` is in block `r / 5000`. -/
theorem cover (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  obtain ⟨t, ht⟩ := index_onto ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- THE RESULT ARRAY after the region: `relu (A + b) · W` of the arrays the region finds. -/
theorem final (c : Dev nD) : (dat1 (F := Ideal) V c).arrAt 3 cfg1.N = result V c :=
  (dat1 (F := Ideal) V c).arrAt_eq_of_cover 3 (result V c) (fun t _ => flushed_eq V c t) cover

end Cert.LayerRegion

end
-- ==== Proof.HeadRegion.lean ====
/-
  The third kernel: the last activation followed by the classifier head.

  The kernel works on 20 blocks of 5000 nodes. At block `t` it loads rows `5000 t … 5000 t + 4999` of the aggregated
  array, the last layer's bias as a row, the whole head matrix and the head's bias as a row, and stores
  `relu (A + b) · W + c` of them as rows `5000 t …` of the result. Entry `(p, q)` reads the aggregated array at row `p`
  only, so the block computed alone holds the corresponding rows of the whole result; the 20 blocks tile the 100000
  rows, so after the last block the result array is that function of the arrays, whatever it held before.
-/
import proofs.«171486_j17678085390367_1_alg».proof.Proof.Gen.KernelIdeal.Frame
import proofs.«171486_j17678085390367_1_alg».proof.Proof.DenseStages
import proofs.«171486_j17678085390367_1_alg».proof.Proof.BlockLayout
import proofs.«171486_j17678085390367_1_alg».proof.Proof.LibPlainDot
import Idealize.ShloMosaic.Lib.ValueLayout
import Idealize.ShloMosaic.Lib.Pipeline.Value

set_option maxRecDepth 16384

noncomputable section

namespace Cert.HeadRegion

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.DenseStages Cert.BlockLayout
open scoped BigOperators

/-! ## What the body computes, entry by entry -/

/-- The body's stored value at `(r, q)` of the block: the stage's formula of the loaded blocks. -/
theorem payload_apply (x0 : Vec Ideal S5000x128 .f32) (x1 : Vec Ideal S1x128 .f32) (x2 : Vec Ideal S128x20 .f32)
    (x3 : Vec Ideal S1x20 .f32) (r : Fin 5000) (q : Fin 20) :
    k2_pay1 (F := Ideal) x0 x1 x2 x3 (ix2 r q) = activateClassify x0 (rowVec x1) x2 (rowVec x3) (ix2 r q) := by
  unfold k2_pay1
  show FloatOps.matmul (F := Ideal) dot_S5000x128_S128x20_S5000x20_1_0_0_1_n_n none _ _ (constant S5000x20 .f32 0x00000000#32) (ix2 r q)
      + broadcastTo S5000x20 (shapeCast S1x20 x3 shapeCasts_S1x20_S1x20) broadcasts_S1x20_S5000x20 (ix2 r q) = _
  rw [Cert.LibPlainDot.matmul_plain_apply _ rfl rfl rfl rfl rfl rfl, broadcastTo_1b_ab_apply, activateClassify_apply]
  refine congrArg₂ (· + ·) (Finset.sum_congr rfl fun k _ => ?_)
    (congrFun (shapeCast_self x3 shapeCasts_S1x20_S1x20) (ix2 (0 : Fin 1) q))
  show max (shapeCast S5000x128 x0 shapeCasts_S5000x128_S5000x128 (ix2 r k)
      + broadcastTo S5000x128 (shapeCast S1x128 x1 shapeCasts_S1x128_S1x128) broadcasts_S1x128_S5000x128 (ix2 r k))
    (Ideal.ofBits .f32 0x00000000#32) * x2 (ix2 k q) = _
  rw [shapeCast_self, broadcastTo_1b_ab_apply, shapeCast_self]
  rfl

/-- An entry of the block computed alone is the entry of the whole result at the row the block's row came from. -/
theorem block_entry (A : FVec Ideal ⟨2, ![100000, 128]⟩ .f32) (b : FVec Ideal ⟨2, ![1, 128]⟩ .f32) (W : FVec Ideal ⟨2, ![128, 20]⟩ .f32)
    (cb : FVec Ideal ⟨2, ![1, 20]⟩ .f32)
    (x0 : Vec Ideal S5000x128 .f32) (x1 : Vec Ideal S1x128 .f32) (x2 : Vec Ideal S128x20 .f32) (x3 : Vec Ideal S1x20 .f32)
    (j : (⟨2, ![5000, 20]⟩ : Shape).Idx) (i : (⟨2, ![100000, 20]⟩ : Shape).Idx)
    (hrow : ∀ d : Fin 128, x0 (ix2 (j 0) d) = A (ix2 (i 0) d)) (hcol : (j 1).val = (i 1).val)
    (h1 : x1 = b) (h2 : x2 = W) (h3 : x3 = cb) :
    k2_pay1 (F := Ideal) x0 x1 x2 x3 j = activateClassify A (rowVec b) W (rowVec cb) i := by
  subst h1 h2 h3
  obtain ⟨r, q, rfl⟩ : ∃ (r : Fin 5000) (q : Fin 20), j = ix2 r q := ⟨j 0, j 1, eq_ix2 j⟩
  obtain ⟨p, q', rfl⟩ : ∃ (p : Fin 100000) (q' : Fin 20), i = ix2 p q' := ⟨i 0, i 1, eq_ix2 i⟩
  have hq : q = q' := Fin.ext hcol
  subst hq
  rw [payload_apply, activateClassify_apply, activateClassify_apply]
  exact congrArg (· + rowVec x3 (ix1 q))
    (Finset.sum_congr rfl fun k _ => by rw [shiftRelu_row A x0 (rowVec x1) p r hrow k])

/-! ## The blocks -/

/-- The printed index maps, decided over the 20 points: the aggregated array and the result move together along the
    rows, at block index `t`; every other block index is zero. -/
theorem index_facts : ∀ t : Fin cfg2.N, win2_0.index t (0 : Fin 2) = win2_4.index t (0 : Fin 2)
    ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) ≤ 19 ∧ win2_4.index t (1 : Fin 2) = 0 :=
  (by decide +kernel : ∀ t : Fin grid2.N, _)

/-- Every one of the 20 row blocks is some point's. -/
theorem index_onto : ∀ q : Fin 20, ∃ t : Fin cfg2.N, win2_4.index t = ![q.val, 0] :=
  (by decide +kernel : ∀ q : Fin 20, ∃ t : Fin grid2.N, win2_4.index t = ![q.val, 0])

variable (V : (c : Dev nD) → (b : Ref sig .tc) → Buf (Elt Ideal) ((c : Thread nD τ).loc b))

/-- The array the region's result ends holding, as one function of the arrays the region finds. -/
def result (c : Dev nD) : FVec Ideal ⟨2, ![100000, 20]⟩ .f32 :=
  activateClassify (V c main_v60) (rowVec (V c main_v61)) (V c main_arg8) (rowVec (V c main_v62))

/-- WHAT POINT `t` WRITES BACK is block `t` of that array. -/
theorem flushed_eq (c : Dev nD) (t : Fin cfg2.N) :
    (dat2 (F := Ideal) V c).flushed 4 t = ((cfg2.win 4).blk t).view.read (Elt Ideal) (result V c) := by
  show (cfg2.win 4).cut (grid2.coords t) ((dat2 V c).after 4 t) = _
  rw [after2_4]
  unfold out2_4
  rw [View.canon_unit_zero zero_offsets]
  simp only [View.ld_unit_zero (S := S5000x128) zero_offsets, View.ld_unit_zero (S := S1x128) zero_offsets,
    View.ld_unit_zero (S := S128x20) zero_offsets, View.ld_unit_zero (S := S1x20) zero_offsets]
  obtain ⟨e0, e1, e2, e3, e4, e5, e6, e7, e8, e9⟩ := index_facts t
  funext j
  refine block_entry (V c main_v60) (V c main_v61) (V c main_arg8) (V c main_v62)
    (iblk2 V c 0 t) (iblk2 V c 1 t) (iblk2 V c 2 t) (iblk2 V c 3 t) j (((cfg2.win 4).blk t).view.emb j) ?_ ?_ ?_ ?_ ?_
  · intro d
    show V c main_v60 (((cfg2.win 0).blk t).view.emb (ix2 (j 0) d)) = V c main_v60 (ix2 ((((cfg2.win 4).blk t).view.emb j) 0) d)
    refine congrArg (V c main_v60) (funext fun a => Fin.ext ?_)
    match a with
    | ⟨0, _⟩ => show win2_0.index t (0 : Fin 2) * 5000 + 1 * (j 0).val = win2_4.index t (0 : Fin 2) * 5000 + 1 * (j 0).val; omega
    | ⟨1, _⟩ => show win2_0.index t (1 : Fin 2) * 128 + 1 * d.val = d.val; omega
  · show (j 1).val = win2_4.index t (1 : Fin 2) * 20 + 1 * (j 1).val; omega
  · funext y
    show V c main_v61 (((cfg2.win 1).blk t).view.emb y) = V c main_v61 y
    refine congrArg (V c main_v61) (funext fun a => Fin.ext ?_)
    match a with
    | ⟨0, _⟩ => show win2_1.index t (0 : Fin 2) * 1 + 1 * (y 0).val = (y 0).val; omega
    | ⟨1, _⟩ => show win2_1.index t (1 : Fin 2) * 128 + 1 * (y 1).val = (y 1).val; omega
  · funext y
    show V c main_arg8 (((cfg2.win 2).blk t).view.emb y) = V c main_arg8 y
    refine congrArg (V c main_arg8) (funext fun a => Fin.ext ?_)
    match a with
    | ⟨0, _⟩ => show win2_2.index t (0 : Fin 2) * 128 + 1 * (y 0).val = (y 0).val; omega
    | ⟨1, _⟩ => show win2_2.index t (1 : Fin 2) * 20 + 1 * (y 1).val = (y 1).val; omega
  · funext y
    show V c main_v62 (((cfg2.win 3).blk t).view.emb y) = V c main_v62 y
    refine congrArg (V c main_v62) (funext fun a => Fin.ext ?_)
    match a with
    | ⟨0, _⟩ => show win2_3.index t (0 : Fin 2) * 1 + 1 * (y 0).val = (y 0).val; omega
    | ⟨1, _⟩ => show win2_3.index t (1 : Fin 2) * 20 + 1 * (y 1).val = (y 1).val; omega

/-- An index of the result array is in point `t`'s block iff each coordinate is in the block's range on its axis. -/
theorem mem_blk (t : Fin cfg2.N) (i : S100000x20.Idx) :
    i ∈ ((cfg2.win 4).blk t).view.set ↔ ∀ a : Fin 2, win2_4.index t a * S5000x20.size a ≤ (i a).val
      ∧ (i a).val < win2_4.index t a * S5000x20.size a + S5000x20.size a := by
  show i ∈ ((View.whole main_v63).slice (win2_4.rect t)).set ↔ _
  rw [View.set_slice_whole, Rect.mem_set_unit]
  exact Iff.rfl

/-- The 20 blocks tile the 100000 rows: row `r` is in block `r / 5000`. -/
theorem cover (i : S100000x20.Idx) : ∃ t : Fin cfg2.N, (cfg2.win 4).flush t = true ∧ i ∈ ((cfg2.win 4).blk t).view.set := by
  have hi0 : (i 0).val < 100000 := (i 0).isLt
  have hi1 : (i 1).val < 20 := (i 1).isLt
  obtain ⟨t, ht⟩ := index_onto ⟨(i 0).val / 5000, by omega⟩
  have q0 : win2_4.index t (0 : Fin 2) = (i 0).val / 5000 := congrFun ht 0
  have q1 : win2_4.index t (1 : Fin 2) = 0 := congrFun ht 1
  refine ⟨t, flush2_4 t, ?_⟩
  rw [mem_blk]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 20 ≤ (i 1).val ∧ (i 1).val < win2_4.index t (1 : Fin 2) * 20 + 20; omega

/-- THE RESULT ARRAY after the region: `relu (A + b) · W + c` of the arrays the region finds. -/
theorem final (c : Dev nD) : (dat2 (F := Ideal) V c).arrAt 4 cfg2.N = result V c :=
  (dat2 (F := Ideal) V c).arrAt_eq_of_cover 4 (result V c) (fun t _ => flushed_eq V c t) cover

end Cert.HeadRegion

end
-- ==== Proof.LibHostDense.lean ====
/-
  A dense layer of a host program read at coordinates, at the extended reals.

  A `dot_general` of an `[M, K]` array by a `[K, N]` matrix that contracts the left operand's columns with the right
  operand's rows and has no batch axis is, at `(p, q)`, the sum over `k` of `l (p, k) · W (k, q)`: the product into a zero
  accumulator and the host's product are one sum. A length-`N` vector laid out as the row `[1, N]` (`broadcast_in_dim`
  along axis 1) and repeated over `M` rows reads, at `(p, q)`, the vector at `q`; a scalar repeated over an array reads the
  scalar at every index. Together they read a rectified dense layer, `max (l · W + b) c`, at `(p, q)`.
-/
import proofs.«171486_j17678085390367_1_alg».proof.Proof.LibPlainDot
import Idealize.ShloMosaic.Lib.Pipeline.Value

noncomputable section

namespace Cert.LibHostDense

open Idealize.ShloMosaic Idealize.ShloMosaic.ValueIdx
open scoped BigOperators

variable {α : Type}

/-- The host's product at `(p, q)`. -/
theorem hostDot_plain_apply {M K N : ℕ} (d : DotDims ⟨2, ![M, K]⟩ ⟨2, ![K, N]⟩ ⟨2, ![M, N]⟩) {φ₁ φ₂ : FTy}
    (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (r : FVec Ideal ⟨2, ![K, N]⟩ φ₂) (p : Fin M) (q : Fin N) :
    Host.dotGeneral d prec l r (ix2 p q) = ∑ k : Fin K, l (ix2 p k) * r (ix2 k q) := by
  show FloatOps.dotGeneral d prec .single l r (ix2 p q) = _
  rw [Ideal.dotGeneral_apply, ← Ideal.matmul_constant_zero_apply d prec]
  exact Cert.LibPlainDot.matmul_plain_apply d hlc hrc hlb hrb hln hrn prec l r p q

/-- A length-`n` vector laid out as the row `[1, n]` reads, at `(0, q)`, the vector at `q`. -/
theorem bcastRow_apply {n : ℕ} (x : (⟨1, ![n]⟩ : Shape).Idx → α)
    (h : (⟨1, ![n]⟩ : Shape).BroadcastsInDim ⟨2, ![1, n]⟩ (![1] : Fin 1 → Fin 2)) (u : Fin 1) (q : Fin n) :
    broadcastInDim ⟨2, ![1, n]⟩ ![1] h x (ix2 u q) = x (ix1 q) := by
  refine broadcastInDim_apply _ h x (ix2 u q) (ix1 q) fun a => ?_
  match a with
  | ⟨0, _⟩ =>
    show q.val = if n = 1 then 0 else q.val
    split
    · have := q.isLt; omega
    · rfl

/-- A row `[1, n]` repeated over `m` rows reads, at `(p, q)`, the row at `q`. -/
theorem bcastRows_apply {m n : ℕ} (x : (⟨2, ![1, n]⟩ : Shape).Idx → α)
    (h : (⟨2, ![1, n]⟩ : Shape).BroadcastsInDim ⟨2, ![m, n]⟩ (![0, 1] : Fin 2 → Fin 2)) (p : Fin m) (q : Fin n) :
    broadcastInDim ⟨2, ![m, n]⟩ ![0, 1] h x (ix2 p q) = x (ix2 (0 : Fin 1) q) := by
  refine broadcastInDim_apply _ h x (ix2 p q) (ix2 (0 : Fin 1) q) fun a => ?_
  match a with
  | ⟨0, _⟩ => show 0 = if (1 : ℕ) = 1 then 0 else p.val; rw [if_pos rfl]
  | ⟨1, _⟩ =>
    show q.val = if n = 1 then 0 else q.val
    split
    · have := q.isLt; omega
    · rfl

/-- A scalar repeated over an array reads the scalar at every index. -/
theorem bcastScalar_apply {s : Shape} (x : (⟨0, ![]⟩ : Shape).Idx → α)
    (h : (⟨0, ![]⟩ : Shape).BroadcastsInDim s (![] : Fin 0 → Fin s.rank)) (i : s.Idx) :
    broadcastInDim s ![] h x i = x ix0 :=
  broadcastInDim_apply _ h x i ix0 fun a => a.elim0

/-- A rectified dense layer of a host program at `(p, q)`: the product, the bias row repeated over the rows, the
    maximum with a repeated scalar constant. -/
theorem hostDenseMax_apply {M K N : ℕ} (d : DotDims ⟨2, ![M, K]⟩ ⟨2, ![K, N]⟩ ⟨2, ![M, N]⟩) {φ₁ φ₂ : FTy}
    (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (W : FVec Ideal ⟨2, ![K, N]⟩ φ₂)
    (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (h0 : (⟨0, ![]⟩ : Shape).BroadcastsInDim ⟨2, ![M, N]⟩ (![] : Fin 0 → Fin 2)) (w : BitVec 32) (p : Fin M) (q : Fin N) :
    maximumf (addf (Host.dotGeneral d prec l W)
        (broadcastInDim ⟨2, ![M, N]⟩ ![0, 1] h2 (broadcastInDim ⟨2, ![1, N]⟩ ![1] h1 b)))
      (broadcastInDim ⟨2, ![M, N]⟩ ![] h0 (constant (F := Ideal) ⟨0, ![]⟩ .f32 w)) (ix2 p q)
      = max ((∑ k : Fin K, l (ix2 p k) * W (ix2 k q)) + b (ix1 q)) (Ideal.ofBits .f32 w) := by
  rw [maximumf_apply, addf_apply, hostDot_plain_apply d hlc hrc hlb hrb hln hrn, bcastRows_apply, bcastRow_apply,
    bcastScalar_apply, constant_apply]

end Cert.LibHostDense

end
-- ==== Proof.GraphStages.lean ====
/-
  The network's stages as functions of whole arrays.

  Both programs compute one network. From the edge list they form the source and target of every edge, each node's
  self-loop appended; the in-degree `deg` of every node; `dinv = deg^(-1/2)` where the degree is positive and zero
  elsewhere; and the weight `norm e = dinv (src e) · dinv (dst e)` of every edge. A graph aggregation sends a node array
  `X` to the array whose row `v` is the sum over the edges `e` into `v` of `norm e · X (src e)`. Three dense stages
  separate the two aggregations:

      X₁ = relu (x · W_enc + b_enc) · W₁      A₁ = aggregate X₁
      X₂ = relu (A₁ + b₁) · W₂                A₂ = aggregate X₂
      out = relu (A₂ + b₂) · W_cls + b_cls

  The aggregation is never opened here: it is one function of the edge list and of `X`, the same on both sides, so two
  results agree as soon as the arrays aggregated agree. The dense stages are read entry by entry: each is the formula
  of `DenseStages` at the extended reals.
-/
import proofs.«171486_j17678085390367_1_alg».proof.Proof.Gen.ReferenceIdeal
import proofs.«171486_j17678085390367_1_alg».proof.Proof.LibHostDense
import proofs.«171486_j17678085390367_1_alg».proof.Proof.DenseStages
import Idealize.ShloMosaic.Lib.Pipeline.Value

noncomputable section

namespace Cert.GraphStages

open Cert.ReferenceIdeal Cert.ReferenceIdeal.Gen Idealize.ShloMosaic Idealize.ShloMosaic.ValueIdx
open scoped BigOperators

variable {F : FTy → Type} [FloatOps F]

/-- An array of shape `s` and element type `e`. -/
abbrev Arr (F : FTy → Type) (s : Shape) (e : EltTy) : Type := (⟨s, e⟩ : BufTy).Contents (Elt F)

/-! ## The graph -/

/-- Row `r` of the edge list followed by the nodes `0, 1, …`: every edge's end, then every self-loop's. -/
def endsOf (r : Fin 2 → Nat) (hs : S2x1600000.Slices r S1x1600000) (ei : Arr F S2x1600000 .i32) : Arr F S1700000 .i32 :=
  concatenate S1700000 0
    [⟨S1600000, shapeCast _ (extractStridedSlice S1x1600000 r ei hs) shapeCasts_S1x1600000_S1600000⟩,
     ⟨S100000, iotaInDim S100000 32 0⟩] concatenates_S1600000_S100000_S1700000_d0

/-- The edges' sources. -/
def srcOf (ei : Arr F S2x1600000 .i32) : Arr F S1700000 .i32 := endsOf ![0, 0] slices_S2x1600000_S1x1600000_0_0 ei
/-- The edges' targets. -/
def dstOf (ei : Arr F S2x1600000 .i32) : Arr F S1700000 .i32 := endsOf ![1, 0] slices_S2x1600000_S1x1600000_1_0 ei

/-- A node number counted from the end when negative: `v + 100000` if `v < 0`, else `v`. -/
def wrap (v : Arr F S1700000 .i32) : Arr F S1700000 .i32 :=
  select (cmpi .slt v (broadcastInDim S1700000 ![] bcast_S_S1700000 (constantI S_ 32 0#32)))
    (addi v (broadcastInDim S1700000 ![] bcast_S_S1700000 (constantI S_ 32 100000#32))) v

/-- A list of node numbers as a column of row numbers. -/
def column {α : Type} (v : S1700000.Idx → α) : S1700000x1.Idx → α :=
  broadcastInDim S1700000x1 ![0] bcast_S1700000_S1700000x1_0 v

/-- Every node's in-degree: one for each edge into it. -/
def degOf (ei : Arr F S2x1600000 .i32) : Arr F S100000 .f32 :=
  Host.scatterAdd scatter_S100000_S1700000x1_S1700000_n_0_0_1
    (broadcastInDim S100000 ![] bcast_S_S100000 (constant (F := F) S_ .f32 0x00000000#32))
    (column (dstOf ei))
    (broadcastInDim S1700000 ![] bcast_S_S1700000 (constant (F := F) S_ .f32 0x3F800000#32))

/-- `deg^(-1/2)` where the degree is positive, zero elsewhere. -/
def dinvOf (ei : Arr F S2x1600000 .i32) : Arr F S100000 .f32 :=
  select (cmpf .ogt (degOf ei) (broadcastInDim S100000 ![] bcast_S_S100000 (constant (F := F) S_ .f32 0x00000000#32)))
    (Host.rsqrt (degOf ei))
    (broadcastInDim S100000 ![] bcast_S_S100000 (constant (F := F) S_ .f32 0x00000000#32))

/-- Every edge's weight, `dinv (src e) · dinv (dst e)`. -/
def normOf (ei : Arr F S2x1600000 .i32) : Arr F S1700000 .f32 :=
  mulf (Host.gather gather_S100000_S1700000x1_S1700000_n_0_n_n_0_1_1 (dinvOf ei) (column (wrap (srcOf ei))))
    (Host.gather gather_S100000_S1700000x1_S1700000_n_0_n_n_0_1_1 (dinvOf ei) (column (wrap (dstOf ei))))

/-- The weights from the inverse square roots and the edges' ends given as arrays: what a program computes that keeps
    those three in buffers of their own. -/
def normWith (dinv : Arr F S100000 .f32) (src dst : Arr F S1700000 .i32) : Arr F S1700000 .f32 :=
  mulf (Host.gather gather_S100000_S1700000x1_S1700000_n_0_n_n_0_1_1 dinv (column (wrap src)))
    (Host.gather gather_S100000_S1700000x1_S1700000_n_0_n_n_0_1_1 dinv (column (wrap dst)))

theorem normOf_eq_with (ei : Arr F S2x1600000 .i32) : normOf ei = normWith (dinvOf ei) (srcOf ei) (dstOf ei) := rfl

/-- The graph aggregation of a node array: row `v` of the result is the sum over the edges `e` into `v` of
    `norm e · X (src e)`. -/
def aggregate (ei : Arr F S2x1600000 .i32) (X : Arr F S100000x128 .f32) : Arr F S100000x128 .f32 :=
  Host.scatterAdd scatter_S100000x128_S1700000x1_S1700000x128_1_0_0_1
    (broadcastInDim S100000x128 ![] bcast_S_S100000x128 (constant (F := F) S_ .f32 0x00000000#32))
    (column (dstOf ei))
    (mulf (Host.gather gather_S100000x128_S1700000x1_S1700000x128_1_0_n_n_0_1_1128 X (column (wrap (srcOf ei))))
      (broadcastInDim S1700000x128 ![0, 1] bcast_S1700000x1_S1700000x128_0_1 (column (normOf ei))))

/-- The same aggregation from the edges' targets, sources and weights given as arrays: what a program computes that
    keeps those three in buffers of their own. -/
def aggregateWith (dst src : Arr F S1700000 .i32) (norm : Arr F S1700000 .f32) (X : Arr F S100000x128 .f32) :
    Arr F S100000x128 .f32 :=
  Host.scatterAdd scatter_S100000x128_S1700000x1_S1700000x128_1_0_0_1
    (broadcastInDim S100000x128 ![] bcast_S_S100000x128 (constant (F := F) S_ .f32 0x00000000#32))
    (column dst)
    (mulf (Host.gather gather_S100000x128_S1700000x1_S1700000x128_1_0_n_n_0_1_1128 X (column (wrap src)))
      (broadcastInDim S1700000x128 ![0, 1] bcast_S1700000x1_S1700000x128_0_1 (column norm)))

theorem aggregate_eq_with (ei : Arr F S2x1600000 .i32) (X : Arr F S100000x128 .f32) :
    aggregate ei X = aggregateWith (dstOf ei) (srcOf ei) (normOf ei) X := rfl

/-! ## The dense stages, as the reference spells them -/

/-- A bias vector repeated over the rows of a node array. -/
def rowsOf (b : Arr F S128 .f32) : Arr F S100000x128 .f32 :=
  broadcastInDim S100000x128 ![0, 1] bcast_S1x128_S100000x128_0_1 (broadcastInDim S1x128 ![1] bcast_S128_S1x128_1 b)

/-- The rectifier's floor repeated over a node array. -/
def floorOf : Arr F S100000x128 .f32 :=
  broadcastInDim S100000x128 ![] bcast_S_S100000x128 (constant (F := F) S_ .f32 0x00000000#32)

/-- `relu (x · W_enc + b_enc) · W₁`. -/
def denseEncode (x : Arr F S100000x31 .f32) (We : Arr F S31x128 .f32) (be : Arr F S128 .f32) (W : Arr F S128x128 .f32) :
    Arr F S100000x128 .f32 :=
  Host.dotGeneral dot_S100000x128_S128x128_S100000x128_1_0_0_1_n_n none
    (maximumf (addf (Host.dotGeneral dot_S100000x31_S31x128_S100000x128_1_0_0_1_n_n none x We) (rowsOf be)) floorOf) W

/-- `relu (A + b) · W`. -/
def denseLayer (A : Arr F S100000x128 .f32) (b : Arr F S128 .f32) (W : Arr F S128x128 .f32) : Arr F S100000x128 .f32 :=
  Host.dotGeneral dot_S100000x128_S128x128_S100000x128_1_0_0_1_n_n none (maximumf (addf A (rowsOf b)) floorOf) W

/-- `relu (A + b) · W_cls + b_cls`. -/
def denseHead (A : Arr F S100000x128 .f32) (b : Arr F S128 .f32) (W : Arr F S128x20 .f32) (c : Arr F S20 .f32) :
    Arr F S100000x20 .f32 :=
  addf (Host.dotGeneral dot_S100000x128_S128x20_S100000x20_1_0_0_1_n_n none (maximumf (addf A (rowsOf b)) floorOf) W)
    (broadcastInDim S100000x20 ![0, 1] bcast_S1x20_S100000x20_0_1 (broadcastInDim S1x20 ![1] bcast_S20_S1x20_1 c))

/-- The whole network. -/
def network (x : Arr F S100000x31 .f32) (ei : Arr F S2x1600000 .i32) (We : Arr F S31x128 .f32) (be : Arr F S128 .f32)
    (W1 : Arr F S128x128 .f32) (b1 : Arr F S128 .f32) (W2 : Arr F S128x128 .f32) (b2 : Arr F S128 .f32)
    (Wc : Arr F S128x20 .f32) (bc : Arr F S20 .f32) : Arr F S100000x20 .f32 :=
  denseHead (aggregate ei (denseLayer (aggregate ei (denseEncode x We be W1)) b1 W2)) b2 Wc bc

/-! ## The dense stages, entry by entry, at the extended reals -/

/-- A rectified shifted array at `(p, k)`. -/
theorem shifted_apply (A : FVec Ideal ⟨2, ![100000, 128]⟩ .f32) (b : FVec Ideal ⟨1, ![128]⟩ .f32) (p : Fin 100000) (k : Fin 128) :
    maximumf (addf A (rowsOf (F := Ideal) b)) (floorOf (F := Ideal)) (ix2 p k) = Cert.DenseStages.shiftRelu A b p k := by
  unfold rowsOf floorOf
  rw [maximumf_apply, addf_apply, Cert.LibHostDense.bcastRows_apply, Cert.LibHostDense.bcastRow_apply,
    Cert.LibHostDense.bcastScalar_apply, constant_apply]
  rfl

/-- The encoder and the first matrix: `denseEncode` is `encodeProject`. -/
theorem denseEncode_eq (x : FVec Ideal ⟨2, ![100000, 31]⟩ .f32) (We : FVec Ideal ⟨2, ![31, 128]⟩ .f32)
    (be : FVec Ideal ⟨1, ![128]⟩ .f32) (W : FVec Ideal ⟨2, ![128, 128]⟩ .f32) :
    denseEncode (F := Ideal) x We be W = Cert.DenseStages.encodeProject x We be W := by
  funext i
  obtain ⟨p, q, rfl⟩ : ∃ (p : Fin 100000) (q : Fin 128), i = ix2 p q := ⟨i 0, i 1, eq_ix2 i⟩
  unfold denseEncode
  rw [Cert.LibHostDense.hostDot_plain_apply _ rfl rfl rfl rfl rfl rfl]
  show _ = ∑ k : Fin 128, Cert.DenseStages.affineRelu x We be p k * W (ix2 k q)
  refine Finset.sum_congr rfl fun k _ => ?_
  unfold rowsOf floorOf
  rw [Cert.LibHostDense.hostDenseMax_apply _ rfl rfl rfl rfl rfl rfl]
  rfl

/-- A layer's activation and the next matrix: `denseLayer` is `activateProject`. -/
theorem denseLayer_eq (A : FVec Ideal ⟨2, ![100000, 128]⟩ .f32) (b : FVec Ideal ⟨1, ![128]⟩ .f32)
    (W : FVec Ideal ⟨2, ![128, 128]⟩ .f32) :
    denseLayer (F := Ideal) A b W = Cert.DenseStages.activateProject A b W := by
  funext i
  obtain ⟨p, q, rfl⟩ : ∃ (p : Fin 100000) (q : Fin 128), i = ix2 p q := ⟨i 0, i 1, eq_ix2 i⟩
  unfold denseLayer
  rw [Cert.LibHostDense.hostDot_plain_apply _ rfl rfl rfl rfl rfl rfl]
  show _ = ∑ k : Fin 128, Cert.DenseStages.shiftRelu A b p k * W (ix2 k q)
  exact Finset.sum_congr rfl fun k _ => by rw [shifted_apply]

/-- The last activation and the head: `denseHead` is `activateClassify`. -/
theorem denseHead_eq (A : FVec Ideal ⟨2, ![100000, 128]⟩ .f32) (b : FVec Ideal ⟨1, ![128]⟩ .f32)
    (W : FVec Ideal ⟨2, ![128, 20]⟩ .f32) (c : FVec Ideal ⟨1, ![20]⟩ .f32) :
    denseHead (F := Ideal) A b W c = Cert.DenseStages.activateClassify A b W c := by
  funext i
  obtain ⟨p, q, rfl⟩ : ∃ (p : Fin 100000) (q : Fin 20), i = ix2 p q := ⟨i 0, i 1, eq_ix2 i⟩
  unfold denseHead
  rw [addf_apply, Cert.LibHostDense.hostDot_plain_apply _ rfl rfl rfl rfl rfl rfl,
    Cert.LibHostDense.bcastRows_apply, Cert.LibHostDense.bcastRow_apply, Cert.DenseStages.activateClassify_apply]
  exact congrArg (· + c (ix1 q)) (Finset.sum_congr rfl fun k _ => by rw [shifted_apply])

end Cert.GraphStages

end
-- ==== Proof.LibConcatPair.lean ====
/-
  A concatenate of two parts as a function of the two parts.

  The concatenate operation takes its parts as a list of arrays, each paired with its shape, and a side condition
  stated over that list's shapes. A statement about one part therefore cannot be rewritten in place: the side
  condition's type mentions the list. Read as a function of the two parts, with the side condition stated over the two
  shapes alone, the parts are ordinary arguments: a term that evaluates the buffers a program's operations write, one
  rewriting pass at a time, goes on through a concatenate's operands instead of stopping at it.
-/
import Idealize.ShloMosaic.PureOps

namespace Cert.LibConcatPair

open Idealize.ShloMosaic

/-- The concatenate of two parts along axis `a` of the result shape `t`, as a function of the parts. -/
def concat2 {α : Type} (t : Shape) (a : Fin t.rank) (s₁ s₂ : Shape) (h : Shape.Concatenates [s₁, s₂] t a)
    (x₁ : s₁.Idx → α) (x₂ : s₂.Idx → α) : t.Idx → α := concatenate t a [⟨s₁, x₁⟩, ⟨s₂, x₂⟩] h

/-- A concatenate of a literal list of two parts is that function of them. -/
theorem concatenate_pair {α : Type} (t : Shape) (a : Fin t.rank) (s₁ s₂ : Shape) (x₁ : s₁.Idx → α) (x₂ : s₂.Idx → α)
    (h : Shape.Concatenates [s₁, s₂] t a) : concatenate t a [⟨s₁, x₁⟩, ⟨s₂, x₂⟩] h = concat2 t a s₁ s₂ h x₁ x₂ := rfl

end Cert.LibConcatPair
-- ==== Proof.LibTyped.lean ====
/-
  Typed references: a value carried to a buffer's own type and back.

  A host operation inside a called function is stated over references that carry the type of the tensor value they
  hold; its function is moved to the buffer's own type along the reference's type equation, on the way in and on the
  way out. Reading a chain of such operations therefore leaves, around every intermediate value, a transport to the
  buffer's type followed by the transport back. The two cancel, whatever the reference.
-/
import Idealize.ShloMosaic.Lib.StableHlo

namespace Cert.LibTyped

open Idealize.ShloMosaic Idealize.ShloMosaic.StableHlo

/-- A value moved to a typed reference's buffer type and back is the value: both moves are transports along the one
    equation between the buffer's type and the value's, in opposite directions. -/
theorem ofBuf_toBuf {sig : RefSig} {T : BufTy} {Val : EltTy → Type} (x : TRef sig T) (v : T.Contents Val) :
    x.ofBuf (x.toBuf v) = v := by
  obtain ⟨r, h, h1, h2⟩ := x
  subst h
  rfl

/-- The same the other way round: a buffer's contents read at the value's type and moved back. -/
theorem toBuf_ofBuf {sig : RefSig} {T : BufTy} {Val : EltTy → Type} (x : TRef sig T) (v : x.ref.ty.Contents Val) :
    x.toBuf (x.ofBuf v) = v := by
  obtain ⟨r, h, h1, h2⟩ := x
  subst h
  rfl

end Cert.LibTyped
-- ==== Proof.LibTypedLit.lean ====
/-
  Typed references at a literal buffer: the transport is the identity.

  A typed reference made from a buffer at that buffer's own type carries the reflexive type equation, so moving a
  value to the buffer's type, or back, along it changes nothing.
-/
import Idealize.ShloMosaic.Lib.StableHlo

namespace Cert.LibTypedLit

open Idealize.ShloMosaic Idealize.ShloMosaic.StableHlo

/-- Contents of a buffer read at the buffer's own type through its typed reference are the contents. -/
theorem ofBuf_of {sig : RefSig} {Val : EltTy → Type} (r : Ref sig .tc) (h1) (h2) (v : r.ty.Contents Val) :
    (TRef.of (T := r.ty) r rfl h1 h2).ofBuf v = v := rfl

/-- A value of the buffer's own type moved to the buffer through its typed reference is the value. -/
theorem toBuf_of {sig : RefSig} {Val : EltTy → Type} (r : Ref sig .tc) (h1) (h2) (v : r.ty.Contents Val) :
    (TRef.of (T := r.ty) r rfl h1 h2).toBuf v = v := rfl

end Cert.LibTypedLit
-- ==== Proof.LibRow.lean ====
/-
  A vector laid out as a row.

  Casting a vector of n entries to the shape [1, n] keeps the entries in order: entry (0, j) of the row is entry j of
  the vector, because both sit at row-major position j.
-/
import Idealize.ShloMosaic.Lib.Pipeline.Value
import Idealize.ShloMosaic.Lib.ValueIdx

noncomputable section

namespace Cert.LibRow

open Idealize.ShloMosaic Idealize.ShloMosaic.ValueIdx

/-- An [n] vector cast to the row [1, n], read at (0, j), is the vector at j — for any element type and any n. -/
theorem row_apply {α : Type} {n : Nat} (v : (⟨1, ![n]⟩ : Shape).Idx → α) (h : (⟨1, ![n]⟩ : Shape).ShapeCasts ⟨2, ![1, n]⟩) (j : Fin n) :
    shapeCast (⟨2, ![1, n]⟩ : Shape) v h (ix2 (0 : Fin 1) j) = v (ix1 j) := by
  refine shapeCast_apply v h (ix2 (0 : Fin 1) j) (ix1 j) ?_
  rw [Shape.rowMajor_val_one, Shape.rowMajor_val_two]
  show j.val = (0 : Fin 1).val * n + j.val
  simp

end Cert.LibRow

end
-- ==== Proof.KernelFold.lean ====
/-
  The kernel program's result, read through its run.

  The run's buffer contents at the boundaries of its segments are a fold through the program: `W3` where the first
  kernel is entered, `W4` where it is left, `W5` / `W6` around the second, `W7` / `W8` around the third. A host stretch
  rewrites the buffers its operations write and keeps the rest; a kernel region leaves its result array at the product
  of `EncoderRegion` / `LayerRegion` / `HeadRegion` of the arrays it found, and keeps every buffer that is not one of
  its arrays.

  Walking the fold once: the first stretches leave the edges' sources, targets and weights (the same functions of the
  edge list as the reference's), and the encoder's bias as a row; the first kernel leaves `relu (x · W_enc + b_enc) · W₁`;
  the next stretch aggregates it; the second kernel leaves `relu (A₁ + b₁) · W₂`; the next stretch aggregates that;
  the third kernel leaves `relu (A₂ + b₂) · W_cls + b_cls`. That is the network of `GraphStages` of the arguments.
-/
import proofs.«171486_j17678085390367_1_alg».proof.Proof.Gen.KernelIdeal.Frame
import proofs.«171486_j17678085390367_1_alg».proof.Proof.EncoderRegion
import proofs.«171486_j17678085390367_1_alg».proof.Proof.LayerRegion
import proofs.«171486_j17678085390367_1_alg».proof.Proof.HeadRegion
import proofs.«171486_j17678085390367_1_alg».proof.Proof.GraphStages
import proofs.«171486_j17678085390367_1_alg».proof.Proof.LibConcatPair
import proofs.«171486_j17678085390367_1_alg».proof.Proof.LibTyped
import proofs.«171486_j17678085390367_1_alg».proof.Proof.LibTypedLit
import proofs.«171486_j17678085390367_1_alg».proof.Proof.LibRow

set_option maxRecDepth 16384

noncomputable section

namespace Cert.KernelFold

open Cert.KernelIdeal Cert.KernelIdeal.Gen Idealize.ShloMosaic Idealize.ShloMosaic.TcCoe Idealize.ShloMosaic.ValueIdx Idealize.SL.Sem
open Idealize.ShloMosaic.StableHlo
open Cert.BlockLayout

/-- Reads a buffer out of a fold of host stretches: each operation's result at its own buffer is its function of its
    operands, at any other buffer what was there; a two-part concatenate is read as a function of its parts, and an
    outlined function's moves to a buffer's type and back cancel. -/
macro "read_fold" : tactic =>
  `(tactic| simp (disch := decide) only [Cert.KernelIdeal.Gen.V3, Cert.KernelIdeal.Gen.W3, Cert.KernelIdeal.Gen.W2,
      Cert.KernelIdeal.Gen.W1, Cert.KernelIdeal.Gen.V5, Cert.KernelIdeal.Gen.W5, Cert.KernelIdeal.Gen.V7, Cert.KernelIdeal.Gen.W7,
      Cert.KernelIdeal.Gen.hostOps0, Cert.KernelIdeal.Gen.hostOps0_1, Cert.KernelIdeal.Gen.hostOps0_2,
      Cert.KernelIdeal.Gen.hostOps1, Cert.KernelIdeal.Gen.hostOps2,
      Idealize.ShloMosaic.StableHlo.after_cons, Idealize.ShloMosaic.StableHlo.after_nil,
      Idealize.ShloMosaic.StableHlo.nullary_result', Idealize.ShloMosaic.StableHlo.unary_result',
      Idealize.ShloMosaic.StableHlo.binary_result', Idealize.ShloMosaic.StableHlo.ternary_result',
      Idealize.ShloMosaic.StableHlo.reshape_result',
      Idealize.ShloMosaic.StableHlo.nullary_result_ne', Idealize.ShloMosaic.StableHlo.unary_result_ne',
      Idealize.ShloMosaic.StableHlo.binary_result_ne', Idealize.ShloMosaic.StableHlo.ternary_result_ne',
      Idealize.ShloMosaic.StableHlo.reshape_result_ne',
      Cert.LibConcatPair.concatenate_pair, Cert.LibTyped.ofBuf_toBuf, Cert.LibTyped.toBuf_ofBuf, Cert.LibTypedLit.ofBuf_of,
      Cert.LibTypedLit.toBuf_of])

variable (m : (ℓ : Loc nD τ sig) → Buf (Elt Ideal) ℓ) (ρ : Dev nD → PrngReg) (c : Dev nD)

/-- A bias reshaped to a row, read back as a vector, is the bias. -/
theorem rowVec_cast {n : ℕ} (b : FVec Ideal ⟨1, ![n]⟩ .f32) (h : (⟨1, ![n]⟩ : Shape).ShapeCasts ⟨2, ![1, n]⟩) :
    rowVec (shapeCast (⟨2, ![1, n]⟩ : Shape) b h) = b := by
  funext i
  obtain ⟨k, rfl⟩ : ∃ k : Fin n, i = ix1 k := ⟨i 0, eq_ix1 i⟩
  exact Cert.LibRow.row_apply b h k

/-! ## Where the first kernel is entered -/

theorem entry0_x : V3 m ρ c main_arg0 = (m ((c : Thread nD τ).loc main_arg0)) := by read_fold <;> rfl
theorem entry0_We : V3 m ρ c main_arg2 = (m ((c : Thread nD τ).loc main_arg2)) := by read_fold <;> rfl
theorem entry0_W1 : V3 m ρ c main_arg4 = (m ((c : Thread nD τ).loc main_arg4)) := by read_fold <;> rfl
theorem entry0_be : V3 m ρ c main_v31 = shapeCast S1x128 (m ((c : Thread nD τ).loc main_arg3)) shapeCasts_S128_S1x128 := by read_fold <;> rfl

/-- The edges' sources, targets and weights, as the first stretches leave them. -/
theorem W3_src : W3 m ρ c (Proc.devRef .tc main_v3) = Cert.GraphStages.srcOf (F := Ideal) (m ((c : Thread nD τ).loc main_arg1)) := by read_fold <;> rfl
theorem W3_dst : W3 m ρ c (Proc.devRef .tc main_v6) = Cert.GraphStages.dstOf (F := Ideal) (m ((c : Thread nD τ).loc main_arg1)) := by read_fold <;> rfl
/-- The inverse square roots of the degrees, where the outlined selection has run. -/
theorem W2_dinv : W2 m ρ c (Proc.devRef .tc main_v15) = Cert.GraphStages.dinvOf (F := Ideal) (m ((c : Thread nD τ).loc main_arg1)) := by
  read_fold
  -- the selection stands alone in its stretch: its three operands come in, and its result goes out, through a move
  -- to the buffer's own type with no move back to meet; each is the identity
  rw [Cert.LibTypedLit.toBuf_of main_v15, Cert.LibTypedLit.ofBuf_of main_v12, Cert.LibTypedLit.ofBuf_of main_v13,
    Cert.LibTypedLit.ofBuf_of main_v14]
  rfl
theorem W2_src : W2 m ρ c (Proc.devRef .tc main_v3) = Cert.GraphStages.srcOf (F := Ideal) (m ((c : Thread nD τ).loc main_arg1)) := by read_fold <;> rfl
theorem W2_dst : W2 m ρ c (Proc.devRef .tc main_v6) = Cert.GraphStages.dstOf (F := Ideal) (m ((c : Thread nD τ).loc main_arg1)) := by read_fold <;> rfl
/-- The weights' stretch from any contents: the weights of the inverse square roots and the ends it finds. -/
theorem stretch0_norm (U : Valuation τ sig (Elt Ideal)) :
    after hostOps0_2 U (Proc.devRef .tc main_v30)
      = Cert.GraphStages.normWith (F := Ideal) (U (Proc.devRef .tc main_v15)) (U (Proc.devRef .tc main_v3)) (U (Proc.devRef .tc main_v6)) := by
  read_fold <;> rfl
theorem W3_norm : W3 m ρ c (Proc.devRef .tc main_v30) = Cert.GraphStages.normOf (F := Ideal) (m ((c : Thread nD τ).loc main_arg1)) := by
  refine (stretch0_norm (W2 m ρ c)).trans ?_
  rw [W2_dinv, W2_src, W2_dst]
  rfl
theorem W3_b1 : W3 m ρ c (Proc.devRef .tc main_arg5) = (m ((c : Thread nD τ).loc main_arg5)) := by read_fold <;> rfl
theorem W3_W2 : W3 m ρ c (Proc.devRef .tc main_arg6) = (m ((c : Thread nD τ).loc main_arg6)) := by read_fold <;> rfl
theorem W3_b2 : W3 m ρ c (Proc.devRef .tc main_arg7) = (m ((c : Thread nD τ).loc main_arg7)) := by read_fold <;> rfl
theorem W3_Wc : W3 m ρ c (Proc.devRef .tc main_arg8) = (m ((c : Thread nD τ).loc main_arg8)) := by read_fold <;> rfl
theorem W3_bc : W3 m ρ c (Proc.devRef .tc main_arg9) = (m ((c : Thread nD τ).loc main_arg9)) := by read_fold <;> rfl

/-! ## The first kernel -/

/-- The first kernel leaves `relu (x · W_enc + b_enc) · W₁`. -/
theorem W4_xw1 : W4 m ρ c (Proc.devRef .tc main_v32) = (Cert.GraphStages.denseEncode (F := Ideal) (m ((c : Thread nD τ).loc main_arg0)) (m ((c : Thread nD τ).loc main_arg2)) (m ((c : Thread nD τ).loc main_arg3)) (m ((c : Thread nD τ).loc main_arg4))) := by
  refine ((W4_arr m ρ c 4).trans (Cert.EncoderRegion.final (V3 m ρ) c)).trans ?_
  unfold Cert.EncoderRegion.result
  rw [entry0_x, entry0_We, entry0_W1, entry0_be, rowVec_cast]
  exact (Cert.GraphStages.denseEncode_eq _ _ _ _).symm

/-! ## The first aggregation -/

/-- An aggregation stretch from any contents: the aggregation of the buffer it gathers, with the targets, sources and
    weights it finds. -/
theorem stretch1_agg (U : Valuation τ sig (Elt Ideal)) :
    after hostOps1 U (Proc.devRef .tc main_v45)
      = Cert.GraphStages.aggregateWith (F := Ideal) (U (Proc.devRef .tc main_v6)) (U (Proc.devRef .tc main_v3)) (U (Proc.devRef .tc main_v30)) (U (Proc.devRef .tc main_v32)) := by
  read_fold <;> rfl
theorem stretch1_b (U : Valuation τ sig (Elt Ideal)) :
    after hostOps1 U (Proc.devRef .tc main_v46) = shapeCast S1x128 (U (Proc.devRef .tc main_arg5)) shapeCasts_S128_S1x128 := by read_fold <;> rfl
theorem stretch1_keeps (U : Valuation τ sig (Elt Ideal)) :
    after hostOps1 U (Proc.devRef .tc main_arg6) = U (Proc.devRef .tc main_arg6) ∧ after hostOps1 U (Proc.devRef .tc main_v3) = U (Proc.devRef .tc main_v3)
    ∧ after hostOps1 U (Proc.devRef .tc main_v6) = U (Proc.devRef .tc main_v6) ∧ after hostOps1 U (Proc.devRef .tc main_v30) = U (Proc.devRef .tc main_v30)
    ∧ after hostOps1 U (Proc.devRef .tc main_arg7) = U (Proc.devRef .tc main_arg7) ∧ after hostOps1 U (Proc.devRef .tc main_arg8) = U (Proc.devRef .tc main_arg8)
    ∧ after hostOps1 U (Proc.devRef .tc main_arg9) = U (Proc.devRef .tc main_arg9) := by
  refine ⟨?_, ?_, ?_, ?_, ?_, ?_, ?_⟩ <;> read_fold

theorem W4_src : W4 m ρ c (Proc.devRef .tc main_v3) = Cert.GraphStages.srcOf (F := Ideal) (m ((c : Thread nD τ).loc main_arg1)) := (W4_of_ne m ρ c main_v3 (by decide)).trans (W3_src m ρ c)
theorem W4_dst : W4 m ρ c (Proc.devRef .tc main_v6) = Cert.GraphStages.dstOf (F := Ideal) (m ((c : Thread nD τ).loc main_arg1)) := (W4_of_ne m ρ c main_v6 (by decide)).trans (W3_dst m ρ c)
theorem W4_norm : W4 m ρ c (Proc.devRef .tc main_v30) = Cert.GraphStages.normOf (F := Ideal) (m ((c : Thread nD τ).loc main_arg1)) := (W4_of_ne m ρ c main_v30 (by decide)).trans (W3_norm m ρ c)

/-- The first aggregation: `A₁`. -/
theorem W5_agg1 : W5 m ρ c (Proc.devRef .tc main_v45) = (Cert.GraphStages.aggregate (F := Ideal) (m ((c : Thread nD τ).loc main_arg1)) (Cert.GraphStages.denseEncode (F := Ideal) (m ((c : Thread nD τ).loc main_arg0)) (m ((c : Thread nD τ).loc main_arg2)) (m ((c : Thread nD τ).loc main_arg3)) (m ((c : Thread nD τ).loc main_arg4)))) := by
  refine (stretch1_agg (W4 m ρ c)).trans ?_
  rw [W4_src, W4_dst, W4_norm, W4_xw1]
  rfl

theorem W5_b1 : W5 m ρ c (Proc.devRef .tc main_v46) = shapeCast S1x128 (m ((c : Thread nD τ).loc main_arg5)) shapeCasts_S128_S1x128 := by
  refine (stretch1_b (W4 m ρ c)).trans ?_
  rw [(W4_of_ne m ρ c main_arg5 (by decide)).trans (W3_b1 m ρ c)]
theorem W5_W2 : W5 m ρ c (Proc.devRef .tc main_arg6) = (m ((c : Thread nD τ).loc main_arg6)) :=
  ((stretch1_keeps (W4 m ρ c)).1.trans (W4_of_ne m ρ c main_arg6 (by decide))).trans (W3_W2 m ρ c)
theorem W5_src : W5 m ρ c (Proc.devRef .tc main_v3) = Cert.GraphStages.srcOf (F := Ideal) (m ((c : Thread nD τ).loc main_arg1)) := ((stretch1_keeps (W4 m ρ c)).2.1).trans (W4_src m ρ c)
theorem W5_dst : W5 m ρ c (Proc.devRef .tc main_v6) = Cert.GraphStages.dstOf (F := Ideal) (m ((c : Thread nD τ).loc main_arg1)) := ((stretch1_keeps (W4 m ρ c)).2.2.1).trans (W4_dst m ρ c)
theorem W5_norm : W5 m ρ c (Proc.devRef .tc main_v30) = Cert.GraphStages.normOf (F := Ideal) (m ((c : Thread nD τ).loc main_arg1)) := ((stretch1_keeps (W4 m ρ c)).2.2.2.1).trans (W4_norm m ρ c)
theorem W5_b2 : W5 m ρ c (Proc.devRef .tc main_arg7) = (m ((c : Thread nD τ).loc main_arg7)) :=
  (((stretch1_keeps (W4 m ρ c)).2.2.2.2.1).trans (W4_of_ne m ρ c main_arg7 (by decide))).trans (W3_b2 m ρ c)
theorem W5_Wc : W5 m ρ c (Proc.devRef .tc main_arg8) = (m ((c : Thread nD τ).loc main_arg8)) :=
  (((stretch1_keeps (W4 m ρ c)).2.2.2.2.2.1).trans (W4_of_ne m ρ c main_arg8 (by decide))).trans (W3_Wc m ρ c)
theorem W5_bc : W5 m ρ c (Proc.devRef .tc main_arg9) = (m ((c : Thread nD τ).loc main_arg9)) :=
  (((stretch1_keeps (W4 m ρ c)).2.2.2.2.2.2).trans (W4_of_ne m ρ c main_arg9 (by decide))).trans (W3_bc m ρ c)

/-! ## The second kernel -/

/-- The second kernel leaves `relu (A₁ + b₁) · W₂`. -/
theorem W6_xw2 : W6 m ρ c (Proc.devRef .tc main_v47) = (Cert.GraphStages.denseLayer (F := Ideal) (Cert.GraphStages.aggregate (F := Ideal) (m ((c : Thread nD τ).loc main_arg1)) (Cert.GraphStages.denseEncode (F := Ideal) (m ((c : Thread nD τ).loc main_arg0)) (m ((c : Thread nD τ).loc main_arg2)) (m ((c : Thread nD τ).loc main_arg3)) (m ((c : Thread nD τ).loc main_arg4)))) (m ((c : Thread nD τ).loc main_arg5)) (m ((c : Thread nD τ).loc main_arg6))) := by
  refine ((W6_arr m ρ c 3).trans (Cert.LayerRegion.final (V5 m ρ) c)).trans ?_
  unfold Cert.LayerRegion.result
  rw [show V5 m ρ c main_v45 = _ from W5_agg1 m ρ c, show V5 m ρ c main_v46 = _ from W5_b1 m ρ c,
    show V5 m ρ c main_arg6 = _ from W5_W2 m ρ c, rowVec_cast]
  exact (Cert.GraphStages.denseLayer_eq _ _ _).symm

/-! ## The second aggregation -/

theorem stretch2_agg (U : Valuation τ sig (Elt Ideal)) :
    after hostOps2 U (Proc.devRef .tc main_v60)
      = Cert.GraphStages.aggregateWith (F := Ideal) (U (Proc.devRef .tc main_v6)) (U (Proc.devRef .tc main_v3)) (U (Proc.devRef .tc main_v30)) (U (Proc.devRef .tc main_v47)) := by
  read_fold <;> rfl
theorem stretch2_b (U : Valuation τ sig (Elt Ideal)) :
    after hostOps2 U (Proc.devRef .tc main_v61) = shapeCast S1x128 (U (Proc.devRef .tc main_arg7)) shapeCasts_S128_S1x128 := by read_fold <;> rfl
theorem stretch2_c (U : Valuation τ sig (Elt Ideal)) :
    after hostOps2 U (Proc.devRef .tc main_v62) = shapeCast S1x20 (U (Proc.devRef .tc main_arg9)) shapeCasts_S20_S1x20 := by read_fold <;> rfl
theorem stretch2_W (U : Valuation τ sig (Elt Ideal)) : after hostOps2 U (Proc.devRef .tc main_arg8) = U (Proc.devRef .tc main_arg8) := by read_fold

/-- The second aggregation: `A₂`. -/
theorem W7_agg2 : W7 m ρ c (Proc.devRef .tc main_v60) = (Cert.GraphStages.aggregate (F := Ideal) (m ((c : Thread nD τ).loc main_arg1)) (Cert.GraphStages.denseLayer (F := Ideal) (Cert.GraphStages.aggregate (F := Ideal) (m ((c : Thread nD τ).loc main_arg1)) (Cert.GraphStages.denseEncode (F := Ideal) (m ((c : Thread nD τ).loc main_arg0)) (m ((c : Thread nD τ).loc main_arg2)) (m ((c : Thread nD τ).loc main_arg3)) (m ((c : Thread nD τ).loc main_arg4)))) (m ((c : Thread nD τ).loc main_arg5)) (m ((c : Thread nD τ).loc main_arg6)))) := by
  refine (stretch2_agg (W6 m ρ c)).trans ?_
  rw [(W6_of_ne m ρ c main_v3 (by decide)).trans (W5_src m ρ c), (W6_of_ne m ρ c main_v6 (by decide)).trans (W5_dst m ρ c),
    (W6_of_ne m ρ c main_v30 (by decide)).trans (W5_norm m ρ c), W6_xw2]
  rfl
theorem W7_b2 : W7 m ρ c (Proc.devRef .tc main_v61) = shapeCast S1x128 (m ((c : Thread nD τ).loc main_arg7)) shapeCasts_S128_S1x128 := by
  refine (stretch2_b (W6 m ρ c)).trans ?_
  rw [(W6_of_ne m ρ c main_arg7 (by decide)).trans (W5_b2 m ρ c)]
theorem W7_bc : W7 m ρ c (Proc.devRef .tc main_v62) = shapeCast S1x20 (m ((c : Thread nD τ).loc main_arg9)) shapeCasts_S20_S1x20 := by
  refine (stretch2_c (W6 m ρ c)).trans ?_
  rw [(W6_of_ne m ρ c main_arg9 (by decide)).trans (W5_bc m ρ c)]
theorem W7_Wc : W7 m ρ c (Proc.devRef .tc main_arg8) = (m ((c : Thread nD τ).loc main_arg8)) :=
  ((stretch2_W (W6 m ρ c)).trans (W6_of_ne m ρ c main_arg8 (by decide))).trans (W5_Wc m ρ c)

/-! ## The third kernel: the result -/

/-- THE RESULT BUFFER after the run: the network of the arguments. -/
theorem result_eq : W8 m ρ c (Proc.devRef .tc main_v63)
    = Cert.GraphStages.network (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine ((W8_arr m ρ c 4).trans (Cert.HeadRegion.final (V7 m ρ) c)).trans ?_
  unfold Cert.HeadRegion.result
  rw [show V7 m ρ c main_v60 = _ from W7_agg2 m ρ c, show V7 m ρ c main_v61 = _ from W7_b2 m ρ c,
    show V7 m ρ c main_arg8 = _ from W7_Wc m ρ c, show V7 m ρ c main_v62 = _ from W7_bc m ρ c, rowVec_cast, rowVec_cast]
  exact (Cert.GraphStages.denseHead_eq _ _ _ _).symm

end Cert.KernelFold

end
-- ==== Proof.ReferenceNetwork.lean ====
/-
  The reference's result is the network.

  The reference's run ends with its result array at a composition of its 128 operations, written out flat: the two
  graph aggregations each repeat the degrees, their inverse square roots and the edge weights, and every list of edge
  ends is spelt where it is used. That flat term is the network of `GraphStages` — the encoder and first matrix, an
  aggregation, a layer, an aggregation, the head — because each stage's definition, opened, is the corresponding part of
  the flat term: the two agree subterm by subterm.
-/
import proofs.«171486_j17678085390367_1_alg».proof.Proof.ReferenceRun
import proofs.«171486_j17678085390367_1_alg».proof.Proof.GraphStages

noncomputable section

namespace Cert.ReferenceNetwork

open Cert.ReferenceIdeal Cert.ReferenceIdeal.Gen Idealize.ShloMosaic Idealize.ShloMosaic.TcCoe Idealize.SL.Sem

variable {F : FTy → Type} [FloatOps F]

set_option maxRecDepth 8192 in
/-- The run's flat result term is the stages composed. -/
theorem result_eq (m : (ℓ : Loc nD τ sig) → Buf (Elt F) ℓ) (c : Dev nD) :
    Cert.ReferenceIdeal.ValueP.res_main_v99 m c
      = Cert.GraphStages.network (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  unfold Cert.ReferenceIdeal.ValueP.res_main_v99
  rfl

/-- From any memory with zero counters every weakly fair execution of the reference terminates with its result array
    at the network of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v99) = Cert.GraphStages.network (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c).1.trans (result_eq m c), (h c).2⟩) (Cert.ReferenceIdeal.ValueP.run m ρ)

end Cert.ReferenceNetwork

end
-- ==== Proof.lean ====
/-
  A two-layer graph convolutional network over 100000 nodes and 1600000 edges, as a program of three kernels among
  stretches of host operations, against the same network written as one straight line of host operations: at the
  extended reals the two results are equal, entry by entry.

  Both programs form, from the edge list, the edges' sources and targets (self-loops appended), the nodes' in-degrees,
  their inverse square roots, and the edges' weights; both aggregate a node array `X` to the array whose row `v` sums
  `weight e · X (src e)` over the edges `e` into `v`. Between the aggregations stand three dense stages — the encoder
  followed by the first layer's matrix, a layer's bias and rectifier followed by the next matrix, the last bias and
  rectifier followed by the classifier head. The kernel program computes each dense stage in one kernel, 5000 nodes at
  a time; the reference computes it on all 100000 nodes at once. Entry `(p, q)` of a dense stage reads its node array
  at row `p` only, so the 20 blocks of rows are the rows of the whole product (`EncoderRegion`, `LayerRegion`,
  `HeadRegion`); the aggregations are the same function of the same edge list applied to equal arrays
  (`GraphStages`), and never need opening. Walking the kernel program's run (`KernelFold`) and the reference's
  (`ReferenceNetwork`) gives the same composition of those stages of the arguments. No step distributes a product over
  a sum or cancels, so the arguments' finiteness is never used.

  The three frames are the programs' runs with the results dropped; the kernel program's idealization rewrites no
  operation, so there is nothing to preserve.
-/
import proofs.«171486_j17678085390367_1_alg».proof.Defs
import proofs.«171486_j17678085390367_1_alg».proof.Proof.Gen.Kernel
import proofs.«171486_j17678085390367_1_alg».proof.Proof.Gen.Kernel.Frame
import proofs.«171486_j17678085390367_1_alg».proof.Proof.Gen.KernelIdeal
import proofs.«171486_j17678085390367_1_alg».proof.Proof.Gen.KernelIdeal.Frame
import proofs.«171486_j17678085390367_1_alg».proof.Proof.Gen.ReferenceIdeal
import proofs.«171486_j17678085390367_1_alg».proof.Proof.Gen.Pre_finite_inputs
import proofs.«171486_j17678085390367_1_alg».proof.Proof.KernelRun
import proofs.«171486_j17678085390367_1_alg».proof.Proof.KernelFold
import proofs.«171486_j17678085390367_1_alg».proof.Proof.ReferenceNetwork
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceNetwork.run (F := Ideal) m ρ)

/-- The idealization rewrote no operation. -/
theorem preserves : Cert.preserves_Kernel_KernelIdeal := trivial

/-- Both programs end with the network of the arguments: the kernel program by its run read through the segments'
    boundary contents, the reference by its run read as the stages composed, from arguments that agree. -/
theorem algebraic : Cert.algebraic_KernelIdeal_ReferenceIdeal := by
  intro m ρ m' ρ' _ hagree
  refine ⟨fun c => Cert.GraphStages.network (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun _ h c => ⟨(h c).1.trans (Cert.KernelFold.result_eq m ρ c), (h c).2⟩) (Cert.KernelIdeal.GenP.run m ρ)
  · refine (θ_run Cert.ReferenceIdeal.defs _ _).mono (fun _ h c => ⟨(h c).1.trans ?_, (h c).2⟩)
      (Cert.ReferenceNetwork.run (F := Ideal) m' ρ')
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
